-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S4096x50 : Shape := ⟨2, ![4096, 50]⟩
abbrev S4096x4096 : Shape := ⟨2, ![4096, 4096]⟩
abbrev S4096x1x256 : Shape := ⟨3, ![4096, 1, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1x256 : S_.BroadcastsInDim S4096x1x256 (![] : Fin 0 → Fin S4096x1x256.rank)
  reducesTo_S4096x1x256_S_d0_1_2 : S4096x1x256.ReducesTo [0, 1, 2] S_

variable [Facts]

def fn_part1 {F : FTy → Type} [FloatOps F] (main_v13 : IVec S_ 1) (main_v16 : IVec S4096x1x256 1) : IVec S_ 1 :=
  let main_c_5 : IVec S_ 1 := constantI S_ 1 1#1
  let main_v17 : IVec S_ 1 := (fun x v => Host.reduce IntOp.andi x v reducesTo_S4096x1x256_S_d0_1_2 h_S_) main_v16 main_c_5
  let main_v18 : IVec S_ 1 := andi main_v13 main_v17
  main_v18

def fn {F : FTy → Type} [FloatOps F] (main_arg0 : FVec F S100000x128 .f32) (main_arg1 : IVec S4096x50 32) (main_arg2 : FVec F S4096x4096 .f32) (main_arg3 : FVec F S4096x4096 .f32) (main_arg4 : FVec F S4096x1x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S4096x4096 .f32 := Host.absf main_arg2
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg3
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x1x256 .f32 := Host.absf main_arg4
  let main_cst_4 : FVec F S_ .f32 := constant S_ .f32 0x7F800000#32
  let main_v15 : FVec F S4096x1x256 .f32 := broadcastInDim S4096x1x256 ![] bcast_S_S4096x1x256 main_cst_4
  let main_v16 : IVec S4096x1x256 1 := cmpf .olt main_v14 main_v15
  fn_part1 (F := F) main_v13 main_v16
-- ==== Kernel.lean ====
abbrev S100000x128 : Shape := ⟨2, ![100000, 128]⟩
abbrev S4096x50 : Shape := ⟨2, ![4096, 50]⟩
abbrev S4096x4096 : Shape := ⟨2, ![4096, 4096]⟩
abbrev S4096x1x256 : Shape := ⟨3, ![4096, 1, 256]⟩
abbrev S_ : Shape := ⟨0, ![]⟩
abbrev S4096x50x1 : Shape := ⟨3, ![4096, 50, 1]⟩
abbrev S4096x50x128 : Shape := ⟨3, ![4096, 50, 128]⟩
abbrev S4096x128 : Shape := ⟨2, ![4096, 128]⟩
abbrev S1024x512 : Shape := ⟨2, ![1024, 512]⟩
abbrev S512x128 : Shape := ⟨2, ![512, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S4096x50, .i32⟩
  | .hbm, ⟨2, _⟩ => ⟨S4096x4096, .f32⟩
  | .hbm, ⟨3, _⟩ => ⟨S4096x4096, .f32⟩
  | .hbm, ⟨4, _⟩ => ⟨S4096x1x256, .f32⟩
  | .hbm, ⟨5, _⟩ => ⟨S_, .i32⟩
  | .hbm, ⟨6, _⟩ => ⟨S4096x50, .i32⟩
  | .hbm, ⟨7, _⟩ => ⟨S4096x50, .i1⟩
  | .hbm, ⟨8, _⟩ => ⟨S_, .i32⟩
  | .hbm, ⟨9, _⟩ => ⟨S4096x50, .i32⟩
  | .hbm, ⟨10, _⟩ => ⟨S4096x50, .i32⟩
  | .hbm, ⟨11, _⟩ => ⟨S4096x50, .i32⟩
  | .hbm, ⟨12, _⟩ => ⟨S4096x50x1, .i32⟩
  | .hbm, ⟨13, _⟩ => ⟨S4096x50x128, .f32⟩
  | .hbm, ⟨14, _⟩ => ⟨S_, .f32⟩
  | .hbm, ⟨15, _⟩ => ⟨S4096x128, .f32⟩
  | .hbm, ⟨16, _⟩ => ⟨S4096x128, .f32⟩
  | .hbm, ⟨17, _⟩ => ⟨S4096x128, .f32⟩
  | .local _ .vmem, ⟨0, _⟩ => ⟨S1024x512, .f32⟩
  | .local _ .vmem, ⟨1, _⟩ => ⟨S1024x512, .f32⟩
  | .local _ .vmem, ⟨2, _⟩ => ⟨S512x128, .f32⟩
  | .local _ .vmem, ⟨3, _⟩ => ⟨S512x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x512, .f32⟩
  | .local _ .vmem, ⟨8, _⟩ => ⟨S1024x512, .f32⟩
  | .local _ .vmem, ⟨9, _⟩ => ⟨S512x128, .f32⟩
  | .local _ .vmem, ⟨10, _⟩ => ⟨S512x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![4, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x128_S4096x128_d1 : S4096x50x128.ReducesTo [1] S4096x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S1024x128_S1024 : S1024x128.Reduces [1] S1024
  shapeCasts_S1024_S1024x1 : S1024.ShapeCasts S1024x1
  broadcasts_S1024x1_S1024x128 : S1024x1.Broadcasts S1024x128
  gather_S100000x128_S4096x50x1_S4096x50x128_2_0_n_n_0_2_1128_wf : GatherDims.WF S100000x128 S4096x50x1 S4096x50x128 [2] [0] [] [0] [] 2 ![1, 128]
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S4096x128.size a
  hwx0_1 : ∀ i : grid0.Coords, EltTy.bits .f32 = 32 ∨ (Rect.block (s := S4096x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .f32 = 32 ∨ (Rect.block (s := S4096x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x128.size a ≤ S4096x128.size a
  hwx1_1 : ∀ i : grid1.Coords, EltTy.bits .f32 = 32 ∨ (Rect.block (s := S4096x128) S512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_arg2) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg3) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S4096x50 : Shape := ⟨2, ![4096, 50]⟩
abbrev S4096x4096 : Shape := ⟨2, ![4096, 4096]⟩
abbrev S4096x1x256 : Shape := ⟨3, ![4096, 1, 256]⟩
abbrev S_ : Shape := ⟨0, ![]⟩
abbrev S4096x50x1 : Shape := ⟨3, ![4096, 50, 1]⟩
abbrev S4096x50x128 : Shape := ⟨3, ![4096, 50, 128]⟩
abbrev S4096x128 : Shape := ⟨2, ![4096, 128]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S4096x50, .i32⟩
  | .hbm, ⟨2, _⟩ => ⟨S4096x4096, .f32⟩
  | .hbm, ⟨3, _⟩ => ⟨S4096x4096, .f32⟩
  | .hbm, ⟨4, _⟩ => ⟨S4096x1x256, .f32⟩
  | .hbm, ⟨5, _⟩ => ⟨S_, .i32⟩
  | .hbm, ⟨6, _⟩ => ⟨S4096x50, .i32⟩
  | .hbm, ⟨7, _⟩ => ⟨S4096x50, .i1⟩
  | .hbm, ⟨8, _⟩ => ⟨S_, .i32⟩
  | .hbm, ⟨9, _⟩ => ⟨S4096x50, .i32⟩
  | .hbm, ⟨10, _⟩ => ⟨S4096x50, .i32⟩
  | .hbm, ⟨11, _⟩ => ⟨S4096x50, .i32⟩
  | .hbm, ⟨12, _⟩ => ⟨S4096x50x1, .i32⟩
  | .hbm, ⟨13, _⟩ => ⟨S4096x50x128, .f32⟩
  | .hbm, ⟨14, _⟩ => ⟨S_, .f32⟩
  | .hbm, ⟨15, _⟩ => ⟨S4096x128, .f32⟩
  | .hbm, ⟨16, _⟩ => ⟨S4096x4096, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x1, .f32⟩
  | .hbm, ⟨23, _⟩ => ⟨S4096x128, .f32⟩
  | .hbm, ⟨24, _⟩ => ⟨S4096x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_call0_v0 : Ref sig .tc := ⟨.hbm, 18, rfl⟩
abbrev main_call0_cst : Ref sig .tc := ⟨.hbm, 19, rfl⟩
abbrev main_call0_v1 : Ref sig .tc := ⟨.hbm, 20, rfl⟩
abbrev main_call0_v2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  reducesTo_S4096x50x128_S4096x128_d1 : S4096x50x128.ReducesTo [1] S4096x128
  h_S_ : 0 < S_.numel
  reducesTo_S4096x128_S4096_d1 : S4096x128.ReducesTo [1] S4096
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  gather_S100000x128_S4096x50x1_S4096x50x128_2_0_n_n_0_2_1128_wf : GatherDims.WF S100000x128 S4096x50x1 S4096x50x128 [2] [0] [] [0] [] 2 ![1, 128]
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf

class Facts : Prop extends Facts₀ where

variable [Facts]
-- ==== Proof.KernelFr.Shared.lean ====
/-
  What the runs of the two launches' bodies share: each window's block at a grid point, the two conditions the
  bodies branch on in closed form over the grid (the inner coordinate is 0; it is 7), where the output window is
  idle, the staging and accumulator memrefs, and the region invariant opened into the accumulator, the other
  scoped buffers and the generator register.
-/
import proofs.«119342_j36077725286633_2_alg».proof.Proof.Gen.Kernel.Launch
import proofs.«119342_j36077725286633_2_alg».proof.Proof.Gen.Kernel.Skeleton
import proofs.«119342_j36077725286633_2_alg».proof.Proof.Gen.Kernel.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0: what its three cases share

The body of launch 0 runs on a 4 x 8 grid; its second coordinate `k` selects one of three cases: at `k = 0` the
accumulator is first cleared (case A), at `0 < k < 7` it is only added to (case B), at `k = 7` it is added to and then
written to the output block (case C). -/

section Region0
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- "The inner coordinate is 0", as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "The inner coordinate is 7", as the body computes it. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Where the output block is not stored it is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0 : View sig .tc .vmem S1024x128 .f32 := (Memref.whole cc0_stg2_0 : Memref sig .tc .vmem S1024x128 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x128 .f32 := Memref.whole cc0_scratch0
abbrev VS0 : View sig .tc .vmem S1024x128 .f32 := scM0.view

/-- The core's other scoped buffers that launch 0 does not stage, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant opened: the accumulator at some contents, the other scoped buffers, the generator register. -/
theorem PhiA0_open (c : Dev nD) :
    (Pipeline.ΦA spec0 c : sProp 𝕄) ⊢ iprop((∃ d, owns (c : Thread nD τ) scM0 fullShare d) ∗ others0 (F := F) c ∗ (∃ r, prngReg c r)) := by
  unfold Pipeline.ΦA others0; rw [scopedRest0_eq]; simp only [scM0, owns_whole]
  iintro ⟨⟨HS, H1, H2, H3, H4, H5, H6, H7⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA0_close (c : Dev nD) :
    iprop((∃ d, owns (c : Thread nD τ) scM0 fullShare d) ∗ others0 (F := F) c ∗ (∃ r, prngReg c r)) ⊢ (Pipeline.ΦA spec0 c : sProp 𝕄) := by
  unfold Pipeline.ΦA others0; rw [scopedRest0_eq]; simp only [scM0, owns_whole]
  iintro ⟨HS, ⟨H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! # Launch 1: what its three cases share

The body of launch 1 runs on a 4 x 8 grid; its second coordinate `k` selects one of three cases: at `k = 0` the
accumulator is first cleared (case A), at `0 < k < 7` it is only added to (case B), at `k = 7` it is added to and then
written to the output block (case C). -/

section Region1
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- "The inner coordinate is 0", as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "The inner coordinate is 7", as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not stored it is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1 : View sig .tc .vmem S1024x128 .f32 := (Memref.whole cc1_stg2_0 : Memref sig .tc .vmem S1024x128 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := scM1.view

/-- The core's other scoped buffers that launch 1 does not stage, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant opened: the accumulator at some contents, the other scoped buffers, the generator register. -/
theorem PhiA1_open (c : Dev nD) :
    (Pipeline.ΦA spec1 c : sProp 𝕄) ⊢ iprop((∃ d, owns (c : Thread nD τ) scM1 fullShare d) ∗ others1 (F := F) c ∗ (∃ r, prngReg c r)) := by
  unfold Pipeline.ΦA others1; rw [scopedRest1_eq]; simp only [scM1, owns_whole]
  iintro ⟨⟨H0, H1, H2, H3, H4, H5, H6, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    iexact H6
  iexact Hg

/-- And closed again. -/
theorem PhiA1_close (c : Dev nD) :
    iprop((∃ d, owns (c : Thread nD τ) scM1 fullShare d) ∗ others1 (F := F) c ∗ (∃ r, prngReg c r)) ⊢ (Pipeline.ΦA spec1 c : sProp 𝕄) := by
  unfold Pipeline.ΦA others1; rw [scopedRest1_eq]; simp only [scM1, owns_whole]
  iintro ⟨HS, ⟨H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.Kernel.Fr

end
-- ==== Proof.KernelFr.Run0A.lean ====
/-
  The body of launch 0 run whole in case A (the inner coordinate is 0: the accumulator, found at anything, is cleared and the first product added; the output block is left as found).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of launch 0's body on whole memrefs: the stores the output block (`L2`) and the accumulator (`LS0`) end
    with, and the triple — the operand blocks are handed back as found. -/
noncomputable def kernelRun0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KernelFr.Run0B.lean ====
/-
  The body of launch 0 run whole in case B (the inner coordinate is strictly between 0 and 7: the product is added to the accumulator found at `xs0`; the output block is left as found).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of launch 0's body on whole memrefs: the stores the output block (`L2`) and the accumulator (`LS0`) end
    with, and the triple — the operand blocks are handed back as found. -/
noncomputable def kernelRun0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KernelFr.Run0C.lean ====
/-
  The body of launch 0 run whole in case C (the inner coordinate is 7: the product is added to the accumulator found at `xs0` and the output block is stored).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of launch 0's body on whole memrefs: the stores the output block (`L2`) and the accumulator (`LS0`) end
    with, and the triple — the operand blocks are handed back as found. -/
noncomputable def kernelRun0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KernelFr.Region0.lean ====
/-
  Launch 0 as a pipeline: what the accumulator and the output block hold after each grid point (a recursion on the
  point: the case the point is in, run on the point's operand blocks and on what the point before left in the
  accumulator), the region invariant that carries the accumulator from point to point, the pipeline's proof data,
  and the body obligation at every point.
-/
import proofs.«119342_j36077725286633_2_alg».proof.Proof.KernelFr.Run0A
import proofs.«119342_j36077725286633_2_alg».proof.Proof.KernelFr.Run0B
import proofs.«119342_j36077725286633_2_alg».proof.Proof.KernelFr.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Case A's stores into the accumulator cover it. -/
theorem scover0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- What case A leaves in the accumulator: its stores read back. -/
def sout0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) : Vec F S1024x128 .f32 :=
  VS0.read (Elt F) (VS0.writes (Elt F) VS0.junk (kernelRun0_A c i arg2 harg2 arg3 harg3 arg4 harg4 arg5 harg5 hc0 hc1 x0 x1).2.1)

/-- Case B's stores into the accumulator cover it. -/
theorem scover0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- What case B leaves in the accumulator: its stores read back. -/
def sout0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) : Vec F S1024x128 .f32 :=
  VS0.read (Elt F) (VS0.writes (Elt F) VS0.junk (kernelRun0_B c i arg2 harg2 arg3 harg3 arg4 harg4 arg5 harg5 hc0 hc1 x0 x1 xs0).2.1)

/-- Case C's stores into the accumulator cover it. -/
theorem scover0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- What case C leaves in the accumulator: its stores read back. -/
def sout0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) : Vec F S1024x128 .f32 :=
  VS0.read (Elt F) (VS0.writes (Elt F) VS0.junk (kernelRun0_C c i arg2 harg2 arg3 harg3 arg4 harg4 arg5 harg5 hc0 hc1 x0 x1 xs0).2.1)

/-- Case C's stores into the output block cover it. -/
theorem cover0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- What case C leaves in the output block: its stores read back. -/
def out0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) : Vec F S1024x128 .f32 :=
  VO0.read (Elt F) (VO0.writes (Elt F) VO0.junk (kernelRun0_C c i arg2 harg2 arg3 harg3 arg4 harg4 arg5 harg5 hc0 hc1 x0 x1 xs0).1)

/-! ## What the buffers hold after each point -/

/-- After the body at position `n`: the output block (meaningful where it is stored, at the inner coordinate 7) and the
    accumulator. -/
def outsAt0 (c : Dev nD) : (n : ℕ) → n < cfg0.N → Vec F S1024x128 .f32 × Vec F S1024x128 .f32
  | 0, hn => ((VO0.read (Elt F) VO0.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      ((VO0.read (Elt F) VO0.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        ((VO0.read (Elt F) VO0.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = ((VO0.read (Elt F) VO0.junk), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = ((VO0.read (Elt F) VO0.junk), sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers and the generator
    register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 (F := F) c ∗ (∃ r, prngReg c r)) := by
  cases n with
  | zero => exact absurd rfl hz
  | succ n => rfl

/-! ## The pipeline's proof data -/

/-- The arrays as the launch finds them; after the body at point `t` each operand's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point. The operands' memrefs hold their blocks; the closed forms say which case the point is in;
    the invariant hands the body the accumulator at what the point before left (at anything at the first point) and takes
    it back at this point's contents; where the output block is not stored its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_open (F := F) c) $$ HΦ
      icases HΦ' with ⟨HS0, Hoth, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_A c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, Hoth, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_A c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS0, Hoth, Hg⟩
  iapply (PhiA0_close (F := F) c)
  isplitl [HS0]; · iexists _; iexact HS0
  isplitl [Hoth]; · iexact Hoth
  iexact Hg

end

end Cert.Kernel.Fr

end
-- ==== Proof.KernelFr.Run1A.lean ====
/-
  The body of launch 1 run whole in case A (the inner coordinate is 0: the accumulator, found at anything, is cleared and the first product added; the output block is left as found).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of launch 1's body on whole memrefs: the stores the output block (`L2`) and the accumulator (`LS0`) end
    with, and the triple — the operand blocks are handed back as found. -/
noncomputable def kernelRun1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KernelFr.Run1B.lean ====
/-
  The body of launch 1 run whole in case B (the inner coordinate is strictly between 0 and 7: the product is added to the accumulator found at `xs0`; the output block is left as found).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of launch 1's body on whole memrefs: the stores the output block (`L2`) and the accumulator (`LS0`) end
    with, and the triple — the operand blocks are handed back as found. -/
noncomputable def kernelRun1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.KernelFr.Run1C.lean ====
/-
  The body of launch 1 run whole in case C (the inner coordinate is 7: the product is added to the accumulator found at `xs0` and the output block is stored).
  The lists of stores each buffer ends with are found by the run itself.
-/
import proofs.«119342_j36077725286633_2_alg».proof.Proof.KernelFr.Shared

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of launch 1's body on whole memrefs: the stores the output block (`L2`) and the accumulator (`LS0`) end
    with, and the triple — the operand blocks are handed back as found. -/
noncomputable def kernelRun1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.KernelFr.Region1.lean ====
/-
  Launch 1 as a pipeline: what the accumulator and the output block hold after each grid point (a recursion on the
  point: the case the point is in, run on the point's operand blocks and on what the point before left in the
  accumulator), the region invariant that carries the accumulator from point to point, the pipeline's proof data,
  and the body obligation at every point.
-/
import proofs.«119342_j36077725286633_2_alg».proof.Proof.KernelFr.Run1A
import proofs.«119342_j36077725286633_2_alg».proof.Proof.KernelFr.Run1B
import proofs.«119342_j36077725286633_2_alg».proof.Proof.KernelFr.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Case A's stores into the accumulator cover it. -/
theorem scover1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the accumulator: its stores read back. -/
def sout1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) : Vec F S1024x128 .f32 :=
  VS1.read (Elt F) (VS1.writes (Elt F) VS1.junk (kernelRun1_A c i arg2 harg2 arg3 harg3 arg4 harg4 arg5 harg5 hc0 hc1 x0 x1).2.1)

/-- Case B's stores into the accumulator cover it. -/
theorem scover1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the accumulator: its stores read back. -/
def sout1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) : Vec F S1024x128 .f32 :=
  VS1.read (Elt F) (VS1.writes (Elt F) VS1.junk (kernelRun1_B c i arg2 harg2 arg3 harg3 arg4 harg4 arg5 harg5 hc0 hc1 x0 x1 xs0).2.1)

/-- Case C's stores into the accumulator cover it. -/
theorem scover1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the accumulator: its stores read back. -/
def sout1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) : Vec F S1024x128 .f32 :=
  VS1.read (Elt F) (VS1.writes (Elt F) VS1.junk (kernelRun1_C c i arg2 harg2 arg3 harg3 arg4 harg4 arg5 harg5 hc0 hc1 x0 x1 xs0).2.1)

/-- Case C's stores into the output block cover it. -/
theorem cover1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- What case C leaves in the output block: its stores read back. -/
def out1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) : Vec F S1024x128 .f32 :=
  VO1.read (Elt F) (VO1.writes (Elt F) VO1.junk (kernelRun1_C c i arg2 harg2 arg3 harg3 arg4 harg4 arg5 harg5 hc0 hc1 x0 x1 xs0).1)

/-! ## What the buffers hold after each point -/

/-- After the body at position `n`: the output block (meaningful where it is stored, at the inner coordinate 7) and the
    accumulator. -/
def outsAt1 (c : Dev nD) : (n : ℕ) → n < cfg1.N → Vec F S1024x128 .f32 × Vec F S1024x128 .f32
  | 0, hn => ((VO1.read (Elt F) VO1.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      ((VO1.read (Elt F) VO1.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1.read (Elt F) VO1.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = ((VO1.read (Elt F) VO1.junk), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = ((VO1.read (Elt F) VO1.junk), sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers and the generator
    register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 (F := F) c ∗ (∃ r, prngReg c r)) := by
  cases n with
  | zero => exact absurd rfl hz
  | succ n => rfl

/-! ## The pipeline's proof data -/

/-- The arrays as the launch finds them; after the body at point `t` each operand's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point. The operands' memrefs hold their blocks; the closed forms say which case the point is in;
    the invariant hands the body the accumulator at what the point before left (at anything at the first point) and takes
    it back at this point's contents; where the output block is not stored its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨HS0, Hoth, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, Hoth, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS0, Hoth, Hg⟩
  iapply (PhiA1_close (F := F) c)
  isplitl [HS0]; · iexists _; iexact HS0
  isplitl [Hoth]; · iexact Hoth
  iexact Hg

end

end Cert.Kernel.Fr

end
-- ==== Proof.KernelFr.Main.lean ====
/-
  The whole run of the program: the host operations that build the session matrix, then the two launches.
  The contents of every unscoped buffer at each boundary between these three stretches (`B0` … `B3`: the launch
  memory; after the host operations; after each launch, whose arrays then hold what its pipeline wrote back), the two
  launches as segments over those contents, and the run: every weakly fair execution terminates, and at the end
  every unscoped buffer holds `B3`'s contents — in particular the result buffer holds what the second launch's write-backs
  leave, and every argument its launch contents.
-/
import proofs.«119342_j36077725286633_2_alg».proof.Proof.KernelFr.Region0
import proofs.«119342_j36077725286633_2_alg».proof.Proof.KernelFr.Region1
import proofs.«119342_j36077725286633_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c => Gen.V0 m c
/-- After the host operations (launch 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At launch 0's exit: its arrays at what its pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At launch 1's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B1_arg (c : Dev nD) (r : Ref sig .tc) (h : r ∉ hostOps0_W) : B1 m c (Proc.devRef .tc r) = m ((c : Thread nD τ).loc r) :=
  (Gen.V1_of m c r h).trans rfl

theorem B3_main_arg0 (c : Dev nD) : B3 m c (Proc.devRef .tc main_arg0) = m ((c : Thread nD τ).loc main_arg0) :=
  (B3_of_ne m c main_arg0 (by decide)).trans ((B2_of_ne m c main_arg0 (by decide)).trans (B1_arg m c main_arg0 (by decide)))
theorem B3_main_arg1 (c : Dev nD) : B3 m c (Proc.devRef .tc main_arg1) = m ((c : Thread nD τ).loc main_arg1) :=
  (B3_of_ne m c main_arg1 (by decide)).trans ((B2_of_ne m c main_arg1 (by decide)).trans (B1_arg m c main_arg1 (by decide)))
theorem B3_main_arg4 (c : Dev nD) : B3 m c (Proc.devRef .tc main_arg4) = m ((c : Thread nD τ).loc main_arg4) :=
  (B3_of_ne m c main_arg4 (by decide)).trans ((B2_of_ne m c main_arg4 (by decide)).trans (B1_arg m c main_arg4 (by decide)))
/-- The first square matrix is launch 0's left operand: read, never written. -/
theorem B2_main_arg2 (c : Dev nD) : B2 m c (Proc.devRef .tc main_arg2) = m ((c : Thread nD τ).loc main_arg2) :=
  (B2_arr m c 0).trans (((dat0 (E1 m) c).arrAt_in 0 rfl _).trans ((A_eq0 (E1 m) c 0).trans (B1_arg m c main_arg2 (by decide))))
theorem B3_main_arg2 (c : Dev nD) : B3 m c (Proc.devRef .tc main_arg2) = m ((c : Thread nD τ).loc main_arg2) :=
  (B3_of_ne m c main_arg2 (by decide)).trans (B2_main_arg2 m c)
/-- The second square matrix is launch 1's left operand. -/
theorem B2_main_arg3 (c : Dev nD) : B2 m c (Proc.devRef .tc main_arg3) = m ((c : Thread nD τ).loc main_arg3) :=
  (B2_of_ne m c main_arg3 (by decide)).trans (B1_arg m c main_arg3 (by decide))
theorem B3_main_arg3 (c : Dev nD) : B3 m c (Proc.devRef .tc main_arg3) = m ((c : Thread nD τ).loc main_arg3) :=
  (B3_arr m c 0).trans (((dat1 (E2 m) c).arrAt_in 0 rfl _).trans ((A_eq1 (E2 m) c 0).trans (B2_main_arg3 m c)))
/-- The result buffer ends at what launch 1's write-backs leave. -/
theorem B3_main_v9 (c : Dev nD) : B3 m c (Proc.devRef .tc main_v9) = (dat1 (E2 m) c).arrAt 2 cfg1.N :=
  B3_arr m c 2

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The launches as segments -/

set_option backward.isDefEq.respectTransparency.types false in
/-- Launch 0 as a segment of the program: entered with every unscoped buffer at `B1`, left with them at `B2`.
    Its arrays are split out of the unscoped buffers and put back at what the pipeline leaves; the generator register goes
    into the region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at `B2`, left with them at `B3`.
    Its arrays are split out of the unscoped buffers and put back at what the pipeline leaves; the generator register goes
    into the region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program on the
    TensorCores terminates, nothing faulting, and every final state has every unscoped buffer at `B3`'s contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

/-- The run with the result named: the result buffer ends at what launch 1's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (B3_main_v9 m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

end Cert.Kernel.Fr

end
-- ==== Proof.KernelIdealFr.Shared.lean ====
/-
  What the runs of the two launches' bodies share: each window's block at a grid point, the two conditions the
  bodies branch on in closed form over the grid (the inner coordinate is 0; it is 7), where the output window is
  idle, the staging and accumulator memrefs, and the region invariant opened into the accumulator, the other
  scoped buffers and the generator register.
-/
import proofs.«119342_j36077725286633_2_alg».proof.Proof.Gen.KernelIdeal.Launch
import proofs.«119342_j36077725286633_2_alg».proof.Proof.Gen.KernelIdeal.Skeleton
import proofs.«119342_j36077725286633_2_alg».proof.Proof.Gen.KernelIdeal.Points
import Idealize.ShloMosaic.Lib.Pipeline.FrameBody
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Launch 0: what its three cases share

The body of launch 0 runs on a 4 x 8 grid; its second coordinate `k` selects one of three cases: at `k = 0` the
accumulator is first cleared (case A), at `0 < k < 7` it is only added to (case B), at `k = 7` it is added to and then
written to the output block (case C). -/

section Region0
variable (V : (c : Dev nD) → (b : Ref sig .tc) → Buf (Elt F) ((c : Thread nD τ).loc b))

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left operand's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right operand's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region0

/-- "The inner coordinate is 0", as the body computes it. -/
abbrev cond0_0 (i : grid0.Coords) : Prop := (Scalar.cmpi .ne (Scalar.extui (Scalar.cmpi .eq (BitVec.ofNat 32 (i 1).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- "The inner coordinate is 7", as the body computes it. -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
/-- Where the output block is not stored it is idle and not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- One staging buffer of the output window, through which its contents are stated. -/
abbrev VO0 : View sig .tc .vmem S1024x128 .f32 := (Memref.whole cc0_stg2_0 : Memref sig .tc .vmem S1024x128 .f32).view
abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x128 .f32 := Memref.whole cc0_scratch0
abbrev VS0 : View sig .tc .vmem S1024x128 .f32 := scM0.view

/-- The core's other scoped buffers that launch 0 does not stage, each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant opened: the accumulator at some contents, the other scoped buffers, the generator register. -/
theorem PhiA0_open (c : Dev nD) :
    (Pipeline.ΦA spec0 c : sProp 𝕄) ⊢ iprop((∃ d, owns (c : Thread nD τ) scM0 fullShare d) ∗ others0 (F := F) c ∗ (∃ r, prngReg c r)) := by
  unfold Pipeline.ΦA others0; rw [scopedRest0_eq]; simp only [scM0, owns_whole]
  iintro ⟨⟨HS, H1, H2, H3, H4, H5, H6, H7⟩, Hg⟩
  isplitl [HS]; · iexact HS
  isplitr [Hg]
  · isplitl [H1]; · iexact H1
    isplitl [H2]; · iexact H2
    isplitl [H3]; · iexact H3
    isplitl [H4]; · iexact H4
    isplitl [H5]; · iexact H5
    isplitl [H6]; · iexact H6
    iexact H7
  iexact Hg

/-- And closed again. -/
theorem PhiA0_close (c : Dev nD) :
    iprop((∃ d, owns (c : Thread nD τ) scM0 fullShare d) ∗ others0 (F := F) c ∗ (∃ r, prngReg c r)) ⊢ (Pipeline.ΦA spec0 c : sProp 𝕄) := by
  unfold Pipeline.ΦA others0; rw [scopedRest0_eq]; simp only [scM0, owns_whole]
  iintro ⟨HS, ⟨H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-! # Launch 1: what its three cases share

The body of launch 1 runs on a 4 x 8 grid; its second coordinate `k` selects one of three cases: at `k = 0` the
accumulator is first cleared (case A), at `0 < k < 7` it is only added to (case B), at `k = 7` it is added to and then
written to the output block (case C). -/

section Region1
variable (V : (c : Dev nD) → (b : Ref sig .tc) → Buf (Elt F) ((c : Thread nD τ).loc b))

/-- Window `w`'s block at grid point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The right operand's staging buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-- "The inner coordinate is 0", as the body computes it. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)
/-- "The inner coordinate is 7", as the body computes it. -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
/-- Where the output block is not stored it is idle and not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- One staging buffer of the output window, through which its contents are stated. -/
abbrev VO1 : View sig .tc .vmem S1024x128 .f32 := (Memref.whole cc1_stg2_0 : Memref sig .tc .vmem S1024x128 .f32).view
abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
/-- The accumulator: a whole scoped buffer of the kernel's own. -/
abbrev scM1 : Memref sig .tc .vmem S1024x128 .f32 := Memref.whole cc1_scratch0
abbrev VS1 : View sig .tc .vmem S1024x128 .f32 := scM1.view

/-- The core's other scoped buffers that launch 1 does not stage, each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- The class invariant opened: the accumulator at some contents, the other scoped buffers, the generator register. -/
theorem PhiA1_open (c : Dev nD) :
    (Pipeline.ΦA spec1 c : sProp 𝕄) ⊢ iprop((∃ d, owns (c : Thread nD τ) scM1 fullShare d) ∗ others1 (F := F) c ∗ (∃ r, prngReg c r)) := by
  unfold Pipeline.ΦA others1; rw [scopedRest1_eq]; simp only [scM1, owns_whole]
  iintro ⟨⟨H0, H1, H2, H3, H4, H5, H6, HS⟩, Hg⟩
  isplitl [HS]; · iexact HS
  isplitr [Hg]
  · isplitl [H0]; · iexact H0
    isplitl [H1]; · iexact H1
    isplitl [H2]; · iexact H2
    isplitl [H3]; · iexact H3
    isplitl [H4]; · iexact H4
    isplitl [H5]; · iexact H5
    iexact H6
  iexact Hg

/-- And closed again. -/
theorem PhiA1_close (c : Dev nD) :
    iprop((∃ d, owns (c : Thread nD τ) scM1 fullShare d) ∗ others1 (F := F) c ∗ (∃ r, prngReg c r)) ⊢ (Pipeline.ΦA spec1 c : sProp 𝕄) := by
  unfold Pipeline.ΦA others1; rw [scopedRest1_eq]; simp only [scM1, owns_whole]
  iintro ⟨HS, ⟨H0, H1, H2, H3, H4, H5, H6⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iexact Hg

end Cert.KernelIdeal.Fr

end
-- ==== Proof.KernelIdealFr.Run0A.lean ====
/-
  The body of launch 0 run whole in case A (the inner coordinate is 0: the accumulator, found at anything, is cleared and the first product added; the output block is left as found).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of launch 0's body on whole memrefs: the stores the output block (`L2`) and the accumulator (`LS0`) end
    with, and the triple — the operand blocks are handed back as found. -/
noncomputable def kernelRun0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdealFr.Run0B.lean ====
/-
  The body of launch 0 run whole in case B (the inner coordinate is strictly between 0 and 7: the product is added to the accumulator found at `xs0`; the output block is left as found).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of launch 0's body on whole memrefs: the stores the output block (`L2`) and the accumulator (`LS0`) end
    with, and the triple — the operand blocks are handed back as found. -/
noncomputable def kernelRun0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨[], ?_, fun xi2 E K => ?run⟩
  case run =>
    simp only [cc0__matmul_kernel_eq_skeleton]; unfold cc0__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdealFr.Run0C.lean ====
/-
  The body of launch 0 run whole in case C (the inner coordinate is 7: the product is added to the accumulator found at `xs0` and the output block is stored).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of launch 0's body on whole memrefs: the stores the output block (`L2`) and the accumulator (`LS0`) end
    with, and the triple — the operand blocks are handed back as found. -/
noncomputable def kernelRun0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__matmul_kernel i arg2 harg2 arg3 harg3 arg4 harg4 arg5 harg5) K } := by
  refine ⟨?_, ?_, fun E K => ?run⟩
  case run =>
    simp only [cc0__matmul_kernel_eq_skeleton]; unfold cc0__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdealFr.Region0.lean ====
/-
  Launch 0 as a pipeline: what the accumulator and the output block hold after each grid point (a recursion on the
  point: the case the point is in, run on the point's operand blocks and on what the point before left in the
  accumulator), the region invariant that carries the accumulator from point to point, the pipeline's proof data,
  and the body obligation at every point.
-/
import proofs.«119342_j36077725286633_2_alg».proof.Proof.KernelIdealFr.Run0A
import proofs.«119342_j36077725286633_2_alg».proof.Proof.KernelIdealFr.Run0B
import proofs.«119342_j36077725286633_2_alg».proof.Proof.KernelIdealFr.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Case A's stores into the accumulator cover it. -/
theorem scover0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) (y : S1024x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S1024x128.size (by sl_kernel_rfl) y

/-- What case A leaves in the accumulator: its stores read back. -/
def sout0_A (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) : Vec F S1024x128 .f32 :=
  VS0.read (Elt F) (VS0.writes (Elt F) VS0.junk (kernelRun0_A c i arg2 harg2 arg3 harg3 arg4 harg4 arg5 harg5 hc0 hc1 x0 x1).2.1)

/-- Case B's stores into the accumulator cover it. -/
theorem scover0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) (y : S1024x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S1024x128.size (by sl_kernel_rfl) y

/-- What case B leaves in the accumulator: its stores read back. -/
def sout0_B (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) : Vec F S1024x128 .f32 :=
  VS0.read (Elt F) (VS0.writes (Elt F) VS0.junk (kernelRun0_B c i arg2 harg2 arg3 harg3 arg4 harg4 arg5 harg5 hc0 hc1 x0 x1 xs0).2.1)

/-- Case C's stores into the accumulator cover it. -/
theorem scover0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) (y : S1024x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x128.size (by sl_kernel_rfl) y

/-- What case C leaves in the accumulator: its stores read back. -/
def sout0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) : Vec F S1024x128 .f32 :=
  VS0.read (Elt F) (VS0.writes (Elt F) VS0.junk (kernelRun0_C c i arg2 harg2 arg3 harg3 arg4 harg4 arg5 harg5 hc0 hc1 x0 x1 xs0).2.1)

/-- Case C's stores into the output block cover it. -/
theorem cover0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) (y : S1024x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x128.size (by sl_kernel_rfl) y

/-- What case C leaves in the output block: its stores read back. -/
def out0_C (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) : Vec F S1024x128 .f32 :=
  VO0.read (Elt F) (VO0.writes (Elt F) VO0.junk (kernelRun0_C c i arg2 harg2 arg3 harg3 arg4 harg4 arg5 harg5 hc0 hc1 x0 x1 xs0).1)

/-! ## What the buffers hold after each point -/

/-- After the body at position `n`: the output block (meaningful where it is stored, at the inner coordinate 7) and the
    accumulator. -/
def outsAt0 (c : Dev nD) : (n : ℕ) → n < cfg0.N → Vec F S1024x128 .f32 × Vec F S1024x128 .f32
  | 0, hn => ((VO0.read (Elt F) VO0.junk), sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      ((VO0.read (Elt F) VO0.junk), sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => (fun h => by (try dsimp only at h); omega) ((hcond0_1 ⟨n + 1, hn⟩).mp h)) (iblk0 V c 0 ⟨n + 1, hn⟩) (iblk0 V c 1 ⟨n + 1, hn⟩))
    else
      if h1 : (n + 1) % 8 = 7 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        ((VO0.read (Elt F) VO0.junk), sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 8 = 0) (h1 : ¬t.val % 8 = 7) :
    outsAt0 V c t.val t.isLt = ((VO0.read (Elt F) VO0.junk), sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 8 = 0) (h1 : ¬t.val % 8 = 7) :
    outsAt0 V c t.val t.isLt = ((VO0.read (Elt F) VO0.junk), sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers and the generator
    register at some state. -/
def PhiS0 (c : Dev nD) : (n : ℕ) → n ≤ cfg0.N → sProp 𝕄
  | 0, _ => Pipeline.ΦA spec0 c
  | n + 1, hn => iprop(owns (c : Thread nD τ) scM0 fullShare ((outsAt0 V c n hn).2) ∗ others0 (F := F) c ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(owns (c : Thread nD τ) scM0 fullShare ((outsAt0 V c n hn).2) ∗ others0 (F := F) c ∗ (∃ r, prngReg c r)) := rfl

theorem PhiS0_pos (c : Dev nD) (n : ℕ) (h : n ≤ cfg0.N) (hz : n ≠ 0) :
    PhiS0 V c n h = iprop(owns (c : Thread nD τ) scM0 fullShare ((outsAt0 V c (n - 1) (by omega)).2) ∗ others0 (F := F) c ∗ (∃ r, prngReg c r)) := by
  cases n with
  | zero => exact absurd rfl hz
  | succ n => rfl

/-! ## The pipeline's proof data -/

/-- The arrays as the launch finds them; after the body at point `t` each operand's buffer at its block and the output's
    at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 8000000 in
/-- The body at any point. The operands' memrefs hold their blocks; the closed forms say which case the point is in;
    the invariant hands the body the accumulator at what the point before left (at anything at the first point) and takes
    it back at this point's contents; where the output block is not stored its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 32 := lt_of_lt_of_eq t.isLt (show cfg0.N = 32 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 8 = 0
  · have h1 : ¬t.val % 8 = 7 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    by_cases hz : t.val = 0
    · rw [PhiS0_castSucc V c t, PhiS0_zero V c _ _ hz]
      iintro ⟨HΦ, Ho, ⟨%d0, H0⟩, ⟨%d1, H1⟩, ⟨%d2, H2⟩⟩
      ihave HΦ' := (PhiA0_open (F := F) c) $$ HΦ
      icases HΦ' with ⟨HS0, Hoth, Hg⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_A c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [PhiS0_castSucc V c t, PhiS0_pos V c _ _ hz]
      iintro ⟨⟨HS0, Hoth, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_A c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 8 = 7
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover0_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨HS0, Hoth, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover0_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hne : (Fin.last cfg0.N).val ≠ 0 := by rw [Fin.val_last]; have : cfg0.N = 32 := N_0; omega
  rw [show (dat0 V c).Φ (Fin.last cfg0.N) = PhiS0 V c (Fin.last cfg0.N).val (Nat.le_of_lt_succ (Fin.last cfg0.N).isLt) from rfl, PhiS0_pos V c _ _ hne]
  iintro ⟨HS0, Hoth, Hg⟩
  iapply (PhiA0_close (F := F) c)
  isplitl [HS0]; · iexists _; iexact HS0
  isplitl [Hoth]; · iexact Hoth
  iexact Hg

end

end Cert.KernelIdeal.Fr

end
-- ==== Proof.KernelIdealFr.Run1A.lean ====
/-
  The body of launch 1 run whole in case A (the inner coordinate is 0: the accumulator, found at anything, is cleared and the first product added; the output block is left as found).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case A of launch 1's body on whole memrefs: the stores the output block (`L2`) and the accumulator (`LS0`) end
    with, and the triple — the operand blocks are handed back as found. -/
noncomputable def kernelRun1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdealFr.Run1B.lean ====
/-
  The body of launch 1 run whole in case B (the inner coordinate is strictly between 0 and 7: the product is added to the accumulator found at `xs0`; the output block is left as found).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case B of launch 1's body on whole memrefs: the stores the output block (`L2`) and the accumulator (`LS0`) end
    with, and the triple — the operand blocks are handed back as found. -/
noncomputable def kernelRun1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (xi2 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨[], ?_, fun xi2 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdealFr.Run1C.lean ====
/-
  The body of launch 1 run whole in case C (the inner coordinate is 7: the product is added to the accumulator found at `xs0` and the output block is stored).
  The lists of stores each buffer ends with are found by the run itself.
-/
import proofs.«119342_j36077725286633_2_alg».proof.Proof.KernelIdealFr.Shared

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- Case C of launch 1's body on whole memrefs: the stores the output block (`L2`) and the accumulator (`LS0`) end
    with, and the triple — the operand blocks are handed back as found. -/
noncomputable def kernelRun1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) :
    Σ' (L2 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__matmul_kernel i arg2 harg2 arg3 harg3 arg4 harg4 arg5 harg5) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdealFr.Region1.lean ====
/-
  Launch 1 as a pipeline: what the accumulator and the output block hold after each grid point (a recursion on the
  point: the case the point is in, run on the point's operand blocks and on what the point before left in the
  accumulator), the region invariant that carries the accumulator from point to point, the pipeline's proof data,
  and the body obligation at every point.
-/
import proofs.«119342_j36077725286633_2_alg».proof.Proof.KernelIdealFr.Run1A
import proofs.«119342_j36077725286633_2_alg».proof.Proof.KernelIdealFr.Run1B
import proofs.«119342_j36077725286633_2_alg».proof.Proof.KernelIdealFr.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Case A's stores into the accumulator cover it. -/
theorem scover1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) (y : S1024x128.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S1024x128.size (by sl_kernel_rfl) y

/-- What case A leaves in the accumulator: its stores read back. -/
def sout1_A (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) : Vec F S1024x128 .f32 :=
  VS1.read (Elt F) (VS1.writes (Elt F) VS1.junk (kernelRun1_A c i arg2 harg2 arg3 harg3 arg4 harg4 arg5 harg5 hc0 hc1 x0 x1).2.1)

/-- Case B's stores into the accumulator cover it. -/
theorem scover1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) (y : S1024x128.Idx) :
    ∃ pc ∈ (kernelRun1_B c i arg2 harg2 arg3 harg3 arg4 harg4 arg5 harg5 hc0 hc1 x0 x1 xs0).2.1, y ∈ pc.1.set :=
  View.cover_of_tiledL (kernelRun1_B c i arg2 harg2 arg3 harg3 arg4 harg4 arg5 harg5 hc0 hc1 x0 x1 xs0).2.1 S1024x128.size (by sl_kernel_rfl) y

/-- What case B leaves in the accumulator: its stores read back. -/
def sout1_B (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) : Vec F S1024x128 .f32 :=
  VS1.read (Elt F) (VS1.writes (Elt F) VS1.junk (kernelRun1_B c i arg2 harg2 arg3 harg3 arg4 harg4 arg5 harg5 hc0 hc1 x0 x1 xs0).2.1)

/-- Case C's stores into the accumulator cover it. -/
theorem scover1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) (y : S1024x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S1024x128.size (by sl_kernel_rfl) y

/-- What case C leaves in the accumulator: its stores read back. -/
def sout1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) : Vec F S1024x128 .f32 :=
  VS1.read (Elt F) (VS1.writes (Elt F) VS1.junk (kernelRun1_C c i arg2 harg2 arg3 harg3 arg4 harg4 arg5 harg5 hc0 hc1 x0 x1 xs0).2.1)

/-- Case C's stores into the output block cover it. -/
theorem cover1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) (y : S1024x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S1024x128.size (by sl_kernel_rfl) y

/-- What case C leaves in the output block: its stores read back. -/
def out1_C (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) : Vec F S1024x128 .f32 :=
  VO1.read (Elt F) (VO1.writes (Elt F) VO1.junk (kernelRun1_C c i arg2 harg2 arg3 harg3 arg4 harg4 arg5 harg5 hc0 hc1 x0 x1 xs0).1)

/-! ## What the buffers hold after each point -/

/-- After the body at position `n`: the output block (meaningful where it is stored, at the inner coordinate 7) and the
    accumulator. -/
def outsAt1 (c : Dev nD) : (n : ℕ) → n < cfg1.N → Vec F S1024x128 .f32 × Vec F S1024x128 .f32
  | 0, hn => ((VO1.read (Elt F) VO1.junk), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      ((VO1.read (Elt F) VO1.junk), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 8 = 7 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        ((VO1.read (Elt F) VO1.junk), sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 8 = 0) (h1 : ¬t.val % 8 = 7) :
    outsAt1 V c t.val t.isLt = ((VO1.read (Elt F) VO1.junk), sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 8 = 0) (h1 : ¬t.val % 8 = 7) :
    outsAt1 V c t.val t.isLt = ((VO1.read (Elt F) VO1.junk), sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 8 = 0) (h1 : t.val % 8 = 7) :
    outsAt1 V c t.val t.isLt = (out1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (the accumulator at anything);
    afterwards the accumulator at what the point before left in it, the other scoped buffers and the generator
    register at some state. -/
def PhiS1 (c : Dev nD) : (n : ℕ) → n ≤ cfg1.N → sProp 𝕄
  | 0, _ => Pipeline.ΦA spec1 c
  | n + 1, hn => iprop(owns (c : Thread nD τ) scM1 fullShare ((outsAt1 V c n hn).2) ∗ others1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare ((outsAt1 V c n hn).2) ∗ others1 (F := F) c ∗ (∃ r, prngReg c r)) := rfl

theorem PhiS1_pos (c : Dev nD) (n : ℕ) (h : n ≤ cfg1.N) (hz : n ≠ 0) :
    PhiS1 V c n h = iprop(owns (c : Thread nD τ) scM1 fullShare ((outsAt1 V c (n - 1) (by omega)).2) ∗ others1 (F := F) c ∗ (∃ r, prngReg c r)) := by
  cases n with
  | zero => exact absurd rfl hz
  | succ n => rfl

/-! ## The pipeline's proof data -/

/-- The arrays as the launch finds them; after the body at point `t` each operand's buffer at its block and the output's
    at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 8000000 in
/-- The body at any point. The operands' memrefs hold their blocks; the closed forms say which case the point is in;
    the invariant hands the body the accumulator at what the point before left (at anything at the first point) and takes
    it back at this point's contents; where the output block is not stored its buffer is handed back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 8 = 0
  · have h1 : ¬t.val % 8 = 7 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz]
      iintro ⟨HΦ, Ho, ⟨%d0, H0⟩, ⟨%d1, H1⟩, ⟨%d2, H2⟩⟩
      ihave HΦ' := (PhiA1_open (F := F) c) $$ HΦ
      icases HΦ' with ⟨HS0, Hoth, Hg⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A c _ _ _ _ _ _ _ _ _ _ _ _ _)
        isplitl [Hoth]; · iexact Hoth
        iexact Hg
      isplitl [Ho]; · iexact Ho
      isplitl [H0]; · iexact H0
      isplitl [H1]; · iexact H1
      iexists _; iexact H2
    · rw [PhiS1_castSucc V c t, PhiS1_pos V c _ _ hz]
      iintro ⟨⟨HS0, Hoth, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_A c _ _ _ _ _ _ _ _ _ _ _ _ _)
        isplitl [Hoth]; · iexact Hoth
        iexact Hg
      isplitl [Ho]; · iexact Ho
      isplitl [H0]; · iexact H0
      isplitl [H1]; · iexact H1
      iexists _; iexact H2
  · have hz : t.val ≠ 0 := by intro hz; rw [hz] at h0; exact h0 (Nat.zero_mod _)
    by_cases h1 : t.val % 8 = 7
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0]
        · unfold owns; iexists _; isplitr
          swap; · iexact HS0
          ipureintro; exact View.read_writes_of_cover _ _ _ _ _ (scover1_C c _ _ _ _ _ _ _ _ _ _ _ _ _ _)
        isplitl [Hoth]; · iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨HS0, Hoth, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0]
        · unfold owns; iexists _; isplitr
          swap; · iexact HS0
          ipureintro; exact View.read_writes_of_cover _ _ _ _ _ (scover1_B c _ _ _ _ _ _ _ _ _ _ _ _ _ _)
        isplitl [Hoth]; · iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hne : (Fin.last cfg1.N).val ≠ 0 := by rw [Fin.val_last]; have : cfg1.N = 32 := N_1; omega
  rw [show (dat1 V c).Φ (Fin.last cfg1.N) = PhiS1 V c (Fin.last cfg1.N).val (Nat.le_of_lt_succ (Fin.last cfg1.N).isLt) from rfl, PhiS1_pos V c _ _ hne]
  iintro ⟨HS0, Hoth, Hg⟩
  iapply (PhiA1_close (F := F) c)
  isplitl [HS0]; · iexists _; iexact HS0
  isplitl [Hoth]; · iexact Hoth
  iexact Hg

end

end Cert.KernelIdeal.Fr

end
-- ==== Proof.KernelIdealFr.Main.lean ====
/-
  The whole run of the program: the host operations that build the session matrix, then the two launches.
  The contents of every unscoped buffer at each boundary between these three stretches (`B0` … `B3`: the launch
  memory; after the host operations; after each launch, whose arrays then hold what its pipeline wrote back), the two
  launches as segments over those contents, and the run: every weakly fair execution terminates, and at the end
  every unscoped buffer holds `B3`'s contents — in particular the result buffer holds what the second launch's write-backs
  leave, and every argument its launch contents.
-/
import proofs.«119342_j36077725286633_2_alg».proof.Proof.KernelIdealFr.Region0
import proofs.«119342_j36077725286633_2_alg».proof.Proof.KernelIdealFr.Region1
import proofs.«119342_j36077725286633_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev B0 : Dev nD → Valuation τ sig (Elt F) := fun c => Gen.V0 m c
/-- After the host operations (launch 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- At launch 0's exit: its arrays at what its pipeline leaves, every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
/-- At launch 1's exit. -/
def B3 (c : Dev nD) : Valuation τ sig (Elt F) :=
  Pipeline.withArrays spec1 c (B2 m c) fun w => (dat1 (E2 m) c).arrAt w cfg1.N
theorem B3_arr (c : Dev nD) (w : Fin cfg1.W) :
    B3 m c (Proc.devRef .tc (Pipeline.arrRef spec1 w)) = (dat1 (E2 m) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m c (Proc.devRef .tc b) = B2 m c (Proc.devRef .tc b) := by
  unfold B3; exact Pipeline.withArrays_of_ne spec1 c _ _ b hb
abbrev E3 : (c : Dev nD) → (b : Ref sig .tc) → Buf (Elt F) ((c : Thread nD τ).loc b) := fun c b => B3 m c b
theorem hF1 (c : Dev nD) (w : Fin cfg1.W) : (dat1 (E2 m) c).arrAt w cfg1.N = E3 m c (Pipeline.arrRef spec1 w) :=
  (B3_arr m c w).symm
theorem hrest1 (c : Dev nD) : ∀ b, b ∉ Finset.univ.image (Pipeline.arrRef spec1) → E3 m c b = E2 m c b :=
  fun b hb => B3_of_ne m c b fun w e => hb (Finset.mem_image.mpr ⟨w, Finset.mem_univ _, e⟩)

/-! ### The arguments end as launched -/

theorem B1_arg (c : Dev nD) (r : Ref sig .tc) (h : r ∉ hostOps0_W) : B1 m c (Proc.devRef .tc r) = m ((c : Thread nD τ).loc r) :=
  (Gen.V1_of m c r h).trans rfl

theorem B3_main_arg0 (c : Dev nD) : B3 m c (Proc.devRef .tc main_arg0) = m ((c : Thread nD τ).loc main_arg0) :=
  (B3_of_ne m c main_arg0 (by decide)).trans ((B2_of_ne m c main_arg0 (by decide)).trans (B1_arg m c main_arg0 (by decide)))
theorem B3_main_arg1 (c : Dev nD) : B3 m c (Proc.devRef .tc main_arg1) = m ((c : Thread nD τ).loc main_arg1) :=
  (B3_of_ne m c main_arg1 (by decide)).trans ((B2_of_ne m c main_arg1 (by decide)).trans (B1_arg m c main_arg1 (by decide)))
theorem B3_main_arg4 (c : Dev nD) : B3 m c (Proc.devRef .tc main_arg4) = m ((c : Thread nD τ).loc main_arg4) :=
  (B3_of_ne m c main_arg4 (by decide)).trans ((B2_of_ne m c main_arg4 (by decide)).trans (B1_arg m c main_arg4 (by decide)))
/-- The first square matrix is launch 0's left operand: read, never written. -/
theorem B2_main_arg2 (c : Dev nD) : B2 m c (Proc.devRef .tc main_arg2) = m ((c : Thread nD τ).loc main_arg2) :=
  (B2_arr m c 0).trans (((dat0 (E1 m) c).arrAt_in 0 rfl _).trans ((A_eq0 (E1 m) c 0).trans (B1_arg m c main_arg2 (by decide))))
theorem B3_main_arg2 (c : Dev nD) : B3 m c (Proc.devRef .tc main_arg2) = m ((c : Thread nD τ).loc main_arg2) :=
  (B3_of_ne m c main_arg2 (by decide)).trans (B2_main_arg2 m c)
/-- The second square matrix is launch 1's left operand. -/
theorem B2_main_arg3 (c : Dev nD) : B2 m c (Proc.devRef .tc main_arg3) = m ((c : Thread nD τ).loc main_arg3) :=
  (B2_of_ne m c main_arg3 (by decide)).trans (B1_arg m c main_arg3 (by decide))
theorem B3_main_arg3 (c : Dev nD) : B3 m c (Proc.devRef .tc main_arg3) = m ((c : Thread nD τ).loc main_arg3) :=
  (B3_arr m c 0).trans (((dat1 (E2 m) c).arrAt_in 0 rfl _).trans ((A_eq1 (E2 m) c 0).trans (B2_main_arg3 m c)))
/-- The result buffer ends at what launch 1's write-backs leave. -/
theorem B3_main_v9 (c : Dev nD) : B3 m c (Proc.devRef .tc main_v9) = (dat1 (E2 m) c).arrAt 2 cfg1.N :=
  B3_arr m c 2

/-! ## The proof data family and the thread state -/

/-- Every pipeline's proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B3 m c) ∗ ∃ r, prngReg c r)

/-! ## The launches as segments -/

set_option backward.isDefEq.respectTransparency.types false in
/-- Launch 0 as a segment of the program: entered with every unscoped buffer at `B1`, left with them at `B2`.
    Its arrays are split out of the unscoped buffers and put back at what the pipeline leaves; the generator register goes
    into the region invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (E1 m) c)
    unfold Pipeline.ΦA
    iintro ⟨Hp, -, Hr⟩
    isplitl [Hr]; · iexact Hr
    iexact Hp
  hout c := by
    rw [Pipeline.ownSems0_none]
    refine (hout0 (E1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at `B2`, left with them at `B3`.
    Its arrays are split out of the unscoped buffers and put back at what the pipeline leaves; the generator register goes
    into the region invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (B2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (E2 m) c)
    unfold Pipeline.ΦA
    iintro ⟨Hp, -, Hr⟩
    isplitl [Hr]; · iexact Hr
    iexact Hp
  hout c := by
    rw [Pipeline.ownSems0_none]
    refine (hout1 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (E3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (B0 m)),
    .region (reg0 m),
    .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of the program on the
    TensorCores terminates, nothing faulting, and every final state has every unscoped buffer at `B3`'s contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- The frame: every argument ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

/-- The run with the result named: the result buffer ends at what launch 1's write-backs leave, the arguments as launched. -/
theorem run_result (ρ : Dev nD → PrngReg) : θ_run defs (onTc (τ := τ) (main (F := F))) ⟨m, fun _ => 0, ρ⟩ (fun r => ∀ c : Dev nD,
      r.2.mem ((c.tc : Thread nD τ).loc main_v9) = (dat1 (E2 m) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans (B3_main_v9 m c),
     (h c _ (mem_uc main_arg0 (by decide))).trans (B3_main_arg0 m c),
     (h c _ (mem_uc main_arg1 (by decide))).trans (B3_main_arg1 m c),
     (h c _ (mem_uc main_arg2 (by decide))).trans (B3_main_arg2 m c),
     (h c _ (mem_uc main_arg3 (by decide))).trans (B3_main_arg3 m c),
     (h c _ (mem_uc main_arg4 (by decide))).trans (B3_main_arg4 m c)⟩) (run_all m ρ)

end Cert.KernelIdeal.Fr

end
-- ==== Proof.KernelIdealFr.Pieces.lean ====
/-
  What each case of the two bodies leaves in the accumulator and in the output block, as the body's own arithmetic:
  the accumulator after a point is the previous accumulator (the zero block at the inner coordinate 0) plus the product
  of the two operand blocks; at the inner coordinate 7 the first launch's output block is that accumulator, the second
  launch's is that accumulator with every row divided by its norm.
-/
import proofs.«119342_j36077725286633_2_alg».proof.Proof.KernelIdealFr.Region0
import proofs.«119342_j36077725286633_2_alg».proof.Proof.KernelIdealFr.Region1
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by match a with | ⟨0, _⟩ => rfl | ⟨1, _⟩ => rfl

/-! ## Launch 0 -/

theorem sout0_A_eq (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond0_0 i) (hc1 : ¬cond0_1 i)
    (x0 : Vec F S1024x512 .f32) (x1 : Vec F S512x128 .f32) :
    sout0_A c i arg2 harg2 arg3 harg3 arg4 harg4 arg5 harg5 hc0 hc1 x0 x1 = k0_pay2 x0 x1 (k0_pay1 (F := F)) := by
  unfold sout0_A
  rw [View.read_writes_eq_canon _ _ _ (scover0_A c i arg2 harg2 arg3 harg3 arg4 harg4 arg5 harg5 hc0 hc1 x0 x1)]
  unfold kernelRun0_A
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem sout0_B_eq (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : ¬cond0_1 i)
    (x0 : Vec F S1024x512 .f32) (x1 : Vec F S512x128 .f32) (xs0 : Vec F S1024x128 .f32) :
    sout0_B c i arg2 harg2 arg3 harg3 arg4 harg4 arg5 harg5 hc0 hc1 x0 x1 xs0 = k0_pay2 x0 x1 xs0 := by
  unfold sout0_B
  rw [View.read_writes_eq_canon _ _ _ (scover0_B c i arg2 harg2 arg3 harg3 arg4 harg4 arg5 harg5 hc0 hc1 x0 x1 xs0)]
  unfold kernelRun0_B
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem sout0_C_eq (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) :
    sout0_C c i arg2 harg2 arg3 harg3 arg4 harg4 arg5 harg5 hc0 hc1 x0 x1 xs0 = k0_pay2 x0 x1 xs0 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem out0_C_eq (c : Dev nD) (i : grid0.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond0_0 i) (hc1 : cond0_1 i)
    (x0 : Vec F S1024x512 .f32) (x1 : Vec F S512x128 .f32) (xs0 : Vec F S1024x128 .f32) :
    out0_C c i arg2 harg2 arg3 harg3 arg4 harg4 arg5 harg5 hc0 hc1 x0 x1 xs0 = k0_pay2 x0 x1 xs0 := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

/-! ## Launch 1 -/

theorem sout1_A_eq (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : cond1_0 i) (hc1 : ¬cond1_1 i)
    (x0 : Vec F S1024x512 .f32) (x1 : Vec F S512x128 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem sout1_B_eq (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : ¬cond1_1 i)
    (x0 : Vec F S1024x512 .f32) (x1 : Vec F S512x128 .f32) (xs0 : Vec F S1024x128 .f32) :
    sout1_B c i arg2 harg2 arg3 harg3 arg4 harg4 arg5 harg5 hc0 hc1 x0 x1 xs0 = k1_pay2 x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem sout1_C_eq (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) :
    sout1_C c i arg2 harg2 arg3 harg3 arg4 harg4 arg5 harg5 hc0 hc1 x0 x1 xs0 = k1_pay2 x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

theorem out1_C_eq (c : Dev nD) (i : grid1.Coords) (arg2 : Memref sig .tc .vmem S1024x512 .f32) (harg2 : arg2.IsWhole) (arg3 : Memref sig .tc .vmem S512x128 .f32) (harg3 : arg3.IsWhole) (arg4 : Memref sig .tc .vmem S1024x128 .f32) (harg4 : arg4.IsWhole) (arg5 : Memref sig .tc .vmem S1024x128 .f32) (harg5 : arg5.IsWhole) (hc0 : ¬cond1_0 i) (hc1 : cond1_1 i)
    (x0 : Vec F S1024x512 .f32) (x1 : Vec F S512x128 .f32) (xs0 : Vec F S1024x128 .f32) :
    out1_C c i arg2 harg2 arg3 harg3 arg4 harg4 arg5 harg5 hc0 hc1 x0 x1 xs0 = k1_pay3 (k1_pay2 x0 x1 xs0) (k1_pay2 x0 x1 xs0) (k1_pay2 x0 x1 xs0) := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  refine (View.canon_cons_unit_zero (S := S1024x128) hz2 _ _ _).trans ?_
  simp only [View.readCov_unit_zero (S := S1024x128) _ hz2, View.readAt_eq_ld, harg2.read_unread, harg3.read_unread, harg5.read_unread,
    View.ld_unit_zero (S := S1024x512) hz2, View.ld_unit_zero (S := S512x128) hz2, View.ld_unit_zero (S := S1024x128) hz2]

end Cert.KernelIdeal.Fr

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.LibRowOps.lean ====
/-
  Row-wise operations of a matrix at the ideal values, read at explicit coordinates.

  For an [R, C] f32 matrix: the sum along the lanes at row n is the sum over the columns of the entries of that row; the
  maximum along the lanes at row n is the fold of max, from the starting word's value, over the columns; a vector of R
  entries recast as an [R, 1] column and broadcast to [R, C] has at (n, c) the vector's entry n.  For an [R, K] × [C, K]
  product into the zero accumulator that contracts axis 1 of both operands (a product with the second operand
  transposed), entry (p, q) is Σ_k l(p, k) · r(q, k).  All hold at any extents; indices are written by coordinates.
-/
import Idealize.ShloMosaic.PureOps.Ideal.Laws
import Idealize.ShloMosaic.Lib.ValueIdx
import Idealize.ShloMosaic.Lib.Pipeline.Value

noncomputable section

open scoped BigOperators

namespace Cert.LibRow

open Idealize.ShloMosaic Idealize.ShloMosaic.ValueIdx

/-- A sum along the lanes of an [R, C] matrix, at row n, is the sum over the columns of the entries of that row. -/
theorem rowAdd_apply {R C : Nat} (src : FVec Ideal ⟨2, ![R, C]⟩ .f32)
    (h : Shape.Reduces (⟨2, ![R, C]⟩ : Shape) [1] ⟨1, ![R]⟩) (hφ : FKind.Formats .f32)
    (hacc : (0x00000000#32 : BitVec 32) = FKind.add.neutral .f32 hφ) (n : Fin R) :
    multiReduction .add [1] ⟨1, ![R]⟩ src 0x00000000#32 h hφ hacc (ix1 n) = ∑ a : Fin C, src (ix2 n a) :=
  (Ideal.multiReduction_add_single src _ h hφ hacc (ix1 n)).trans
    (Finset.sum_congr rfl fun a _ => congrArg src (funext fun d => Fin.ext (by
      match d with
      | ⟨0, _⟩ => rfl
      | ⟨1, _⟩ => rfl)))

/-- A maximum along the lanes of an [R, C] matrix, at row n, is the fold of max, from the starting word's value, over
    the columns of the entries of that row. -/
theorem rowMax_apply {R C : Nat} (src : FVec Ideal ⟨2, ![R, C]⟩ .f32) (acc : BitVec 32)
    (h : Shape.Reduces (⟨2, ![R, C]⟩ : Shape) [1] ⟨1, ![R]⟩) (hφ : FKind.Formats .f32)
    (hacc : acc = FKind.maximumf.neutral .f32 hφ) (n : Fin R) :
    multiReduction .maximumf [1] ⟨1, ![R]⟩ src acc h hφ hacc (ix1 n)
      = (Finset.univ : Finset (Fin C)).fold max (Ideal.ofBits .f32 acc) (fun a => src (ix2 n a)) :=
  (Ideal.multiReduction_maximumf_single src acc h hφ hacc (ix1 n)).trans
    (congrArg (fun f => Finset.fold max (Ideal.ofBits .f32 acc) f (Finset.univ : Finset (Fin C)))
      (funext fun a => congrArg src (funext fun d => Fin.ext (by
        match d with
        | ⟨0, _⟩ => rfl
        | ⟨1, _⟩ => rfl))))

/-- A vector of R entries recast as an [R, 1] column and broadcast to [R, C] has at (n, c) the vector's entry n. -/
theorem colBroadcast_apply {R C : Nat} {α : Type} (v : (⟨1, ![R]⟩ : Shape).Idx → α)
    (h1 : (⟨1, ![R]⟩ : Shape).ShapeCasts ⟨2, ![R, 1]⟩) (h2 : (⟨2, ![R, 1]⟩ : Shape).Broadcasts ⟨2, ![R, C]⟩)
    (n : Fin R) (c : Fin C) :
    broadcastTo ⟨2, ![R, C]⟩ (shapeCast ⟨2, ![R, 1]⟩ v h1) h2 (ix2 n c) = v (ix1 n) := by
  refine (broadcastTo_apply (shapeCast ⟨2, ![R, 1]⟩ v h1) h2 (ix2 n c) (ix2 n (0 : Fin 1)) fun ax => ?_).trans ?_
  · match ax with
    | ⟨0, _⟩ =>
      show n.val = if R = 1 then 0 else n.val
      split
      · have := n.isLt; omega
      · rfl
    | ⟨1, _⟩ => rfl
  · exact shapeCast_apply v h1 _ _ (by
      rw [Shape.rowMajor_val_one, Shape.rowMajor_val_two]
      show n.val = n.val * 1 + 0
      omega)

/-- `matmul D prec l r 0 (p, q) = Σ_k l(p, k) · r(q, k)` at the ideal values, for an [R, K] × [C, K] → [R, C] product
    contracting axis 1 of both operands. -/
theorem matmul_zero_nt_ix2 {R K C : Nat} {φ₁ φ₂ : FTy} (D : DotDims ⟨2, ![R, K]⟩ ⟨2, ![C, K]⟩ ⟨2, ![R, C]⟩)
    (hlc : D.lhsContracting = [1]) (hrc : D.rhsContracting = [1]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr0 : ∀ (i : (⟨2, ![R, C]⟩ : Shape).Idx) (c : D.contr.Idx), (D.rhsIdx i c 0).val = (i 1).val)
    (prec : Option ContractPrecision)
    (l : FVec Ideal ⟨2, ![R, K]⟩ φ₁) (r : FVec Ideal ⟨2, ![C, K]⟩ φ₂) (p : Fin R) (q : Fin C) :
    matmul D prec l r (constant ⟨2, ![R, C]⟩ .f32 0x00000000#32) (ix2 p q) = ∑ k : Fin K, l (ix2 p k) * r (ix2 q k) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 q k :=
    funext fun a => Fin.ext (by
      match a with
      | ⟨0, _⟩ => exact hr0 _ _
      | ⟨1, _⟩ => exact (D.rhsIdx_val_of_single hrc _ _).trans hk)
  rw [el, er]

end Cert.LibRow

end
-- ==== Proof.KPay.lean ====
/-
  The arithmetic of the kernel body's stored values, read entry by entry at the ideal values.

  At the ideal values a float is an extended real and every operation is exact: narrowing a value to a shorter
  format leaves it unchanged, recasting a matrix to its own shape leaves it unchanged, a matrix product into the
  all-zero accumulator is at entry `(p, q)` the sum over the 512 inner positions of the products of the factors'
  entries, a sum along the lanes at row `p` is the sum over the 128 columns, and a column of row values
  broadcast along the lanes has at `(p, q)` the value of row `p`.  So the first stored value of each launch is
  zero everywhere, the second is the accumulator plus the product of the two loaded blocks, and the second
  launch's last stored value is the accumulator with each row divided by the square root of the sum of the
  squares of the row's entries.
-/
import proofs.«119342_j36077725286633_2_alg».proof.Proof.Gen.KernelIdeal.Skeleton
import proofs.«119342_j36077725286633_2_alg».proof.Proof.LibMatmulZero
import proofs.«119342_j36077725286633_2_alg».proof.Proof.LibRowOps

noncomputable section

open scoped BigOperators

namespace Cert.KMath

open Idealize.ShloMosaic Idealize.ShloMosaic.ValueIdx Cert.KernelIdeal Cert.KernelIdeal.Gen

/-- The product's result row is the left factor's row. -/
theorem dot_lhs0 (i : S1024x128.Idx) (c : dot_S1024x512_S512x128_S1024x128_1_0_0_1_n_n.contr.Idx) :
    (dot_S1024x512_S512x128_S1024x128_1_0_0_1_n_n.lhsIdx i c 0).val = (i 0).val := by
  unfold DotDims.lhsIdx
  rw [dif_neg (show ¬(0 : Fin _) ∈ dot_S1024x512_S512x128_S1024x128_1_0_0_1_n_n.lhsBatch by decide),
    dif_pos (show (0 : Fin _) ∈ dot_S1024x512_S512x128_S1024x128_1_0_0_1_n_n.lhsNonContracting by decide)]
  rfl

/-- The product's result column is the right factor's column. -/
theorem dot_rhs1 (i : S1024x128.Idx) (c : dot_S1024x512_S512x128_S1024x128_1_0_0_1_n_n.contr.Idx) :
    (dot_S1024x512_S512x128_S1024x128_1_0_0_1_n_n.rhsIdx i c 1).val = (i 1).val := by
  unfold DotDims.rhsIdx
  rw [dif_neg (show ¬(1 : Fin _) ∈ dot_S1024x512_S512x128_S1024x128_1_0_0_1_n_n.rhsBatch by decide),
    dif_pos (show (1 : Fin _) ∈ dot_S1024x512_S512x128_S1024x128_1_0_0_1_n_n.rhsNonContracting by decide)]
  rfl

/-- The block product into the zero accumulator, at entry `(p, q)`: the sum over the 512 inner positions. -/
theorem blockProd_apply {φ₁ φ₂ : FTy} (l : FVec Ideal S1024x512 φ₁) (r : FVec Ideal S512x128 φ₂)
    (p : Fin 1024) (q : Fin 128) :
    matmul dot_S1024x512_S512x128_S1024x128_1_0_0_1_n_n none l r (constant S1024x128 .f32 0x00000000#32) (ix2 p q)
      = ∑ k : Fin 512, l (ix2 p k) * r (ix2 k q) :=
  Cert.LibMatmulZero.matmul_zero_ix2 dot_S1024x512_S512x128_S1024x128_1_0_0_1_n_n rfl rfl rfl rfl dot_lhs0 dot_rhs1 none l r p q

/-- The square root of a column of row values, broadcast along the lanes, at `(p, q)`: the square root of row `p`'s
    value. -/
theorem rowNorm_apply (v : FVec Ideal S1024 .f32) (h1 : S1024.ShapeCasts S1024x1)
    (h2 : S1024x1.Broadcasts S1024x128) (p : Fin 1024) (q : Fin 128) :
    broadcastTo S1024x128 (sqrt (shapeCast S1024x1 v h1)) h2 (ix2 p q) = Ideal.sqrt (v (ix1 p)) :=
  Cert.LibRow.colBroadcast_apply (sqrt v) h1 h2 p q

/-- The first launch's first stored value is zero at every entry. -/
theorem pay1_apply (p : Fin 1024) (q : Fin 128) : k0_pay1 (F := Ideal) (ix2 p q) = 0 := by
  unfold k0_pay1
  exact (congrFun (shapeCast_self _ _) (ix2 p q)).trans Ideal.ofBits_zero_f32

/-- The first launch's second stored value: the accumulator plus the product of the two loaded blocks. -/
theorem pay2_apply (x0 : Vec Ideal S1024x512 .f32) (x1 : Vec Ideal S512x128 .f32) (xs : Vec Ideal S1024x128 .f32)
    (p : Fin 1024) (q : Fin 128) :
    k0_pay2 (F := Ideal) x0 x1 xs (ix2 p q) = xs (ix2 p q) + ∑ k : Fin 512, x0 (ix2 p k) * x1 (ix2 k q) := by
  unfold k0_pay2
  refine (congrFun (shapeCast_self _ _) (ix2 p q)).trans ?_
  refine congrArg (xs (ix2 p q) + ·) ?_
  refine (blockProd_apply _ _ p q).trans ?_
  refine Finset.sum_congr rfl fun k _ => ?_
  exact congrArg (x0 (ix2 p k) * ·) (congrFun (shapeCast_self x1 _) (ix2 k q))

/-- The second launch's first stored value is zero at every entry. -/
theorem pay1_apply' (p : Fin 1024) (q : Fin 128) : k1_pay1 (F := Ideal) (ix2 p q) = 0 := by
  unfold k1_pay1
  exact (congrFun (shapeCast_self _ _) (ix2 p q)).trans Ideal.ofBits_zero_f32

/-- The second launch's second stored value: the accumulator plus the product of the two loaded blocks. -/
theorem pay2_apply' (x0 : Vec Ideal S1024x512 .f32) (x1 : Vec Ideal S512x128 .f32) (xs : Vec Ideal S1024x128 .f32)
    (p : Fin 1024) (q : Fin 128) :
    k1_pay2 (F := Ideal) x0 x1 xs (ix2 p q) = xs (ix2 p q) + ∑ k : Fin 512, x0 (ix2 p k) * x1 (ix2 k q) := by
  unfold k1_pay2
  refine (congrFun (shapeCast_self _ _) (ix2 p q)).trans ?_
  refine congrArg (xs (ix2 p q) + ·) ?_
  refine (blockProd_apply _ _ p q).trans ?_
  refine Finset.sum_congr rfl fun k _ => ?_
  exact congrArg (x0 (ix2 p k) * ·) (congrFun (shapeCast_self x1 _) (ix2 k q))

/-- The second launch's last stored value: each entry divided by the Euclidean norm of its row. -/
theorem pay3_apply (s : Vec Ideal S1024x128 .f32) (p : Fin 1024) (q : Fin 128) :
    k1_pay3 (F := Ideal) s s s (ix2 p q)
      = Ideal.div (s (ix2 p q)) (Ideal.sqrt (∑ n : Fin 128, s (ix2 p n) * s (ix2 p n))) := by
  unfold k1_pay3
  refine congrArg (Ideal.div (s (ix2 p q))) ?_
  refine (rowNorm_apply _ _ _ p q).trans ?_
  refine congrArg Ideal.sqrt ?_
  exact Cert.LibRow.rowAdd_apply (mulf s s) _ (.inl rfl) rfl p

end Cert.KMath

end
-- ==== Proof.Spec.lean ====
/-
  The function both programs compute, stated over plain index functions on the extended reals.

  For a session matrix `r` (4096 x 128: per session the sum of its 50 gathered embedding rows) and two square
  matrices `A`, `D` (4096 x 4096) the result is the matrix `D · (A · r)` with every row divided by its
  Euclidean norm: entry `(i, n)` is `y i n / sqrt (Σ_q y i q * y i q)` with `y = D · (A · r)`.

  `prod L x` is the matrix product of a square matrix with a 4096 x 128 matrix, entry by entry a sum over the
  4096 inner positions; `rowUnit y` divides each entry by the norm of its row; `G r A D = rowUnit (prod D (prod A r))`.
-/
import Idealize.ShloMosaic.PureOps.Ideal
import Idealize.ShloMosaic.Lib.ValueIdx

noncomputable section

open scoped BigOperators

namespace Cert.Spec

open Idealize.ShloMosaic Idealize.ShloMosaic.ValueIdx

/-- The square matrices' shape. -/
abbrev SNN : Shape := ⟨2, ![4096, 4096]⟩
/-- The session matrix's and the result's shape. -/
abbrev SNH : Shape := ⟨2, ![4096, 128]⟩

/-- The row of an index of the 4096 x 128 shape, as a number below 4096. -/
abbrev rowOf (idx : SNH.Idx) : Fin 4096 := ⟨(idx 0).val, idx2_lt0 idx⟩
/-- Its column, as a number below 128. -/
abbrev colOf (idx : SNH.Idx) : Fin 128 := ⟨(idx 1).val, idx2_lt1 idx⟩

/-- The matrix product `L · x`: entry `(i, n)` is the sum over `j` of `L (i, j) * x (j, n)`. -/
def prod (L : SNN.Idx → EReal) (x : SNH.Idx → EReal) : SNH.Idx → EReal :=
  fun idx => ∑ j : Fin 4096, L (ix2 (rowOf idx) j) * x (ix2 j (colOf idx))

theorem prod_ix2 (L : SNN.Idx → EReal) (x : SNH.Idx → EReal) (i : Fin 4096) (n : Fin 128) :
    prod L x (ix2 i n) = ∑ j : Fin 4096, L (ix2 i j) * x (ix2 j n) := rfl

/-- Every entry divided by the Euclidean norm of its row. -/
def rowUnit (y : SNH.Idx → EReal) : SNH.Idx → EReal :=
  fun idx => Ideal.div (y idx) (Ideal.sqrt (∑ q : Fin 128, y (ix2 (rowOf idx) q) * y (ix2 (rowOf idx) q)))

theorem rowUnit_ix2 (y : SNH.Idx → EReal) (i : Fin 4096) (n : Fin 128) :
    rowUnit y (ix2 i n) = Ideal.div (y (ix2 i n)) (Ideal.sqrt (∑ q : Fin 128, y (ix2 i q) * y (ix2 i q))) := rfl

/-- The result: `D · (A · r)`, each row scaled to unit length. -/
def G (r : SNH.Idx → EReal) (A D : SNN.Idx → EReal) : SNH.Idx → EReal :=
  rowUnit (prod D (prod A r))

end Cert.Spec

end
-- ==== Proof.KAccum.lean ====
/-
  The accumulation of a tiled matrix product over its inner blocks, over plain index functions.

  Row block `ib` (of 4) holds rows `1024 * ib + p`; inner block `kb` (of 8) holds the inner positions
  `512 * kb + k`.  `part` is the product of one 1024 x 512 block of the left matrix with one 512 x 128 block of
  the right matrix, entry by entry; `accum` is the running total that starts from zero at inner block 0 and adds
  one `part` per inner block.  After the last inner block the running total at `(p, q)` is the full sum over the
  4096 inner positions, that is the entry `(1024 * ib + p, q)` of the matrix product: the position
  `512 * kb + k` runs exactly once through `0, …, 4095` as `(kb, k)` runs through the 8 x 512 pairs, and only
  commutativity and associativity of the addition are used.
-/
import proofs.«119342_j36077725286633_2_alg».proof.Proof.Spec

noncomputable section

open scoped BigOperators

namespace Cert.KMath

open Idealize.ShloMosaic Idealize.ShloMosaic.ValueIdx

/-- Row `p` of row block `ib`, as a row of the 4096-row matrices. -/
def rowIx (ib : Fin 4) (p : Fin 1024) : Fin 4096 := ⟨1024 * ib.val + p.val, by omega⟩

/-- Position `k` of inner block `kb`, as one of the 4096 inner positions. -/
def innerIx (kb : Fin 8) (k : Fin 512) : Fin 4096 := ⟨512 * kb.val + k.val, by omega⟩

/-- The product of block `(ib, kb)` of `L` with block `kb` of `x`, at entry `(p, q)`. -/
def part (L : Cert.Spec.SNN.Idx → EReal) (x : Cert.Spec.SNH.Idx → EReal) (ib : Fin 4) (kb : Fin 8)
    (p : Fin 1024) (q : Fin 128) : EReal :=
  ∑ k : Fin 512, L (ix2 (rowIx ib p) (innerIx kb k)) * x (ix2 (innerIx kb k) q)

/-- The accumulator after inner block `kb`: zero plus the first block's product, then one more product per block. -/
def accum (L : Cert.Spec.SNN.Idx → EReal) (x : Cert.Spec.SNH.Idx → EReal) (ib : Fin 4) :
    (kb : ℕ) → Fin 1024 → Fin 128 → EReal
  | 0 => fun p q => 0 + part L x ib 0 p q
  | kb + 1 => fun p q =>
      accum L x ib kb p q + (if h : kb + 1 < 8 then part L x ib ⟨kb + 1, h⟩ p q else 0)

/-- Eight blocks of 512 positions cover the 4096 positions once each. -/
theorem sum_blocks {M : Type*} [AddCommMonoid M] (g : Fin 4096 → M) :
    ∑ kb : Fin 8, ∑ k : Fin 512, g (innerIx kb k) = ∑ j : Fin 4096, g j := by
  rw [← Fintype.sum_prod_type' (fun (kb : Fin 8) (k : Fin 512) => g (innerIx kb k))]
  refine Fintype.sum_equiv (finProdFinEquiv.trans (finCongr (by norm_num : 8 * 512 = 4096))) _ _ fun y => ?_
  refine congrArg g (Fin.ext ?_)
  show 512 * y.1.val + y.2.val = y.2.val + 512 * y.1.val
  exact Nat.add_comm _ _

/-- The accumulator after inner block `n` is the sum of the block products `0, …, n` (those beyond the eighth
    count as zero). -/
theorem accum_eq_sum (L : Cert.Spec.SNN.Idx → EReal) (x : Cert.Spec.SNH.Idx → EReal) (ib : Fin 4)
    (p : Fin 1024) (q : Fin 128) (n : ℕ) :
    accum L x ib n p q
      = ∑ i ∈ Finset.range (n + 1), (if h : i < 8 then part L x ib ⟨i, h⟩ p q else 0) := by
  induction n with
  | zero =>
    have h0 : accum L x ib 0 p q = part L x ib 0 p q := zero_add _
    rw [h0, Finset.sum_range_one, dif_pos (by norm_num : 0 < 8)]
    rfl
  | succ n ih =>
    rw [Finset.sum_range_succ, ← ih]
    rfl

/-- After the last inner block the accumulator holds the matrix product's entry. -/
theorem accum_last (L : Cert.Spec.SNN.Idx → EReal) (x : Cert.Spec.SNH.Idx → EReal) (ib : Fin 4)
    (p : Fin 1024) (q : Fin 128) :
    accum L x ib 7 p q = Cert.Spec.prod L x (ix2 (rowIx ib p) q) := by
  rw [accum_eq_sum, Cert.Spec.prod_ix2, ← sum_blocks (fun j => L (ix2 (rowIx ib p) j) * x (ix2 j q)),
    ← Fin.sum_univ_eq_sum_range (fun i => if h : i < 8 then part L x ib ⟨i, h⟩ p q else 0) 8]
  refine Finset.sum_congr rfl fun kb _ => ?_
  rw [dif_pos kb.isLt]
  rfl

end Cert.KMath

end
-- ==== Proof.KBlocks.lean ====
/-
  The geometry of the two launches' blocks.

  Both launches run on a 4 x 8 grid of points `t = 8 * ib + kb`: row block `ib` (of 4), inner block `kb` (of 8).
  At point `t` the left operand's window is the 1024 x 512 block at block row `ib`, block column `kb` of a 4096 x 4096
  matrix; the right operand's window is the 512 x 128 block at block row `kb` of a 4096 x 128 matrix; the output
  window is the 1024 x 128 block at block row `ib` of a 4096 x 128 matrix, and it is written back at the points
  with `kb = 7`.  A block's entry `(p, k)` is therefore the array's entry at row `1024 * ib + p` (left operand,
  output) or `512 * kb + k` (right operand), and column `512 * kb + k` (left operand) or the same column (right
  operand, output): a block's coordinate on an axis is always block index times block size plus the coordinate
  inside the block.  Every row `r` of the output lies in the block written back at point `8 * (r / 1024) + 7`, so
  the written-back blocks cover the output array.  The block indices are decided once over the 32 points.
-/
import proofs.«119342_j36077725286633_2_alg».proof.Proof.KernelIdealFr.Region0
import proofs.«119342_j36077725286633_2_alg».proof.Proof.KernelIdealFr.Region1
import proofs.«119342_j36077725286633_2_alg».proof.Proof.KAccum
import Idealize.ShloMosaic.Lib.Pipeline.Value

set_option maxRecDepth 16384

noncomputable section

namespace Cert.KBlocks

open Cert.KernelIdeal Cert.KernelIdeal.Gen
open Idealize.ShloMosaic Idealize.ShloMosaic.TcCoe Idealize.ShloMosaic.ValueIdx
open Idealize.SL.Sem
open Cert.KMath (rowIx innerIx)

/-! ## Launch 0 -/

/-- The three windows' block indices at point `t`: left operand `(t / 8, t % 8)`, right operand `(t % 8, 0)`,
    output `(t / 8, 0)`. -/
theorem idx0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ### The output window -/

/-- The output block's entry `y` at a point of row block `ib` is the array's entry at row `1024 * ib + y 0`,
    column `y 1`. -/
theorem embOut_0 (t : Fin cfg0.N) (ib : Fin 4) (ht : t.val / 8 = ib.val)
    (y : ((cfg0.win 2).xblock (cfg0.grid.coords t)).Idx) :
    ((cfg0.win 2).blk t).view.emb y = ix2 (rowIx ib ⟨(y 0).val, (y 0).isLt⟩) ⟨(y 1).val, (y 1).isLt⟩ := by
  obtain ⟨-, -, -, -, e0, e1⟩ := idx0 t
  funext a; apply Fin.ext
  match a with
  | ⟨0, _⟩ =>
    show win0_2.index t (0 : Fin 2) * 1024 + 1 * (y 0).val = 1024 * ib.val + (y 0).val
    omega
  | ⟨1, _⟩ =>
    show win0_2.index t (1 : Fin 2) * 128 + 1 * (y 1).val = (y 1).val
    omega

/-- The output block of a point of row block `ib`, read off an array `G`. -/
theorem readOut_0 (G : Cert.Spec.SNH.Idx → EReal) (t : Fin cfg0.N) (ib : Fin 4) (ht : t.val / 8 = ib.val)
    (y : ((cfg0.win 2).xblock (cfg0.grid.coords t)).Idx) :
    ((cfg0.win 2).blk t).view.read (Elt Ideal) G y
      = G (ix2 (rowIx ib ⟨(y 0).val, (y 0).isLt⟩) ⟨(y 1).val, (y 1).isLt⟩) :=
  congrArg G (embOut_0 t ib ht y)

/-- An index of the output array is in point `t`'s block iff each coordinate is in the block's range on its axis. -/
theorem mem_blkOut_0 (t : Fin cfg0.N) (i : Cert.Spec.SNH.Idx) :
    i ∈ ((cfg0.win 2).blk t).view.set
      ↔ ∀ a : Fin 2, win0_2.index t a * S1024x128.size a ≤ (i a).val
          ∧ (i a).val < win0_2.index t a * S1024x128.size a + S1024x128.size a := by
  show i ∈ ((View.whole main_v8).slice (win0_2.rect t)).set ↔ _
  rw [View.set_slice_whole, Rect.mem_set_unit]
  exact Iff.rfl

/-- The last point of the row block that holds row `r`. -/
theorem lastPt_lt_0 (r : ℕ) (h : r < 4096) : 8 * (r / 1024) + 7 < cfg0.N := by
  show 8 * (r / 1024) + 7 < grid0.N
  rw [N_0]; omega

/-- Every index of the output array lies in a block that is written back: row `r` in the block of the point
    `8 * (r / 1024) + 7`. -/
theorem cover_0 (i : Cert.Spec.SNH.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  obtain ⟨t, htv⟩ : ∃ t : Fin cfg0.N, t.val = 8 * ((i 0).val / 1024) + 7 := ⟨⟨_, lastPt_lt_0 _ hi0⟩, rfl⟩
  refine ⟨t, (flush0_2 t).mpr (by omega), ?_⟩
  rw [mem_blkOut_0]
  obtain ⟨-, -, -, -, e0, e1⟩ := idx0 t
  intro a
  match a with
  | ⟨0, _⟩ =>
    show win0_2.index t (0 : Fin 2) * 1024 ≤ (i 0).val ∧ (i 0).val < win0_2.index t (0 : Fin 2) * 1024 + 1024
    omega
  | ⟨1, _⟩ =>
    show win0_2.index t (1 : Fin 2) * 128 ≤ (i 1).val ∧ (i 1).val < win0_2.index t (1 : Fin 2) * 128 + 128
    omega

/-! ### The operand windows -/

/-- The left operand's block entry `y` at the point of row block `ib`, inner block `kb` is the array's entry at
    row `1024 * ib + y 0`, column `512 * kb + y 1`. -/
theorem embL_0 (t : Fin cfg0.N) (ib : Fin 4) (kb : Fin 8) (ht : t.val = 8 * ib.val + kb.val)
    (y : ((cfg0.win 0).xblock (cfg0.grid.coords t)).Idx) :
    ((cfg0.win 0).blk t).view.emb y
      = ix2 (rowIx ib ⟨(y 0).val, (y 0).isLt⟩) (innerIx kb ⟨(y 1).val, (y 1).isLt⟩) := by
  obtain ⟨e0, e1, -, -, -, -⟩ := idx0 t
  have hk : kb.val < 8 := kb.isLt
  funext a; apply Fin.ext
  match a with
  | ⟨0, _⟩ =>
    show win0_0.index t (0 : Fin 2) * 1024 + 1 * (y 0).val = 1024 * ib.val + (y 0).val
    omega
  | ⟨1, _⟩ =>
    show win0_0.index t (1 : Fin 2) * 512 + 1 * (y 1).val = 512 * kb.val + (y 1).val
    omega

/-- The right operand's block entry `y` at a point of inner block `kb` is the array's entry at row
    `512 * kb + y 0`, column `y 1`. -/
theorem embR_0 (t : Fin cfg0.N) (ib : Fin 4) (kb : Fin 8) (ht : t.val = 8 * ib.val + kb.val)
    (y : ((cfg0.win 1).xblock (cfg0.grid.coords t)).Idx) :
    ((cfg0.win 1).blk t).view.emb y
      = ix2 (innerIx kb ⟨(y 0).val, (y 0).isLt⟩) ⟨(y 1).val, (y 1).isLt⟩ := by
  obtain ⟨-, -, e0, e1, -, -⟩ := idx0 t
  have hk : kb.val < 8 := kb.isLt
  funext a; apply Fin.ext
  match a with
  | ⟨0, _⟩ =>
    show win0_1.index t (0 : Fin 2) * 512 + 1 * (y 0).val = 512 * kb.val + (y 0).val
    omega
  | ⟨1, _⟩ =>
    show win0_1.index t (1 : Fin 2) * 128 + 1 * (y 1).val = (y 1).val
    omega

section
variable {F : FTy → Type} [FloatOps F]
variable (V : (c : Dev nD) → (b : Ref sig .tc) → Buf (Elt F) ((c : Thread nD τ).loc b))

/-- The left operand's block at the point of row block `ib`, inner block `kb`, read at an entry. -/
theorem readL_0 (c : Dev nD) (t : Fin cfg0.N) (ib : Fin 4) (kb : Fin 8) (ht : t.val = 8 * ib.val + kb.val)
    (y : ((cfg0.win 0).xblock (cfg0.grid.coords t)).Idx) :
    Cert.KernelIdeal.Fr.iblk0 V c 0 t y
      = V c (Pipeline.arrRef spec0 0) (ix2 (rowIx ib ⟨(y 0).val, (y 0).isLt⟩) (innerIx kb ⟨(y 1).val, (y 1).isLt⟩)) :=
  congrArg (V c (Pipeline.arrRef spec0 0)) (embL_0 t ib kb ht y)

/-- The right operand's block at a point of inner block `kb`, read at an entry. -/
theorem readR_0 (c : Dev nD) (t : Fin cfg0.N) (ib : Fin 4) (kb : Fin 8) (ht : t.val = 8 * ib.val + kb.val)
    (y : ((cfg0.win 1).xblock (cfg0.grid.coords t)).Idx) :
    Cert.KernelIdeal.Fr.iblk0 V c 1 t y
      = V c (Pipeline.arrRef spec0 1) (ix2 (innerIx kb ⟨(y 0).val, (y 0).isLt⟩) ⟨(y 1).val, (y 1).isLt⟩) :=
  congrArg (V c (Pipeline.arrRef spec0 1)) (embR_0 t ib kb ht y)

end

/-! ## Launch 1 -/

/-- The three windows' block indices at point `t`: left operand `(t / 8, t % 8)`, right operand `(t % 8, 0)`,
    output `(t / 8, 0)`. -/
theorem idx1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

/-! ### The output window -/

/-- The output block's entry `y` at a point of row block `ib` is the array's entry at row `1024 * ib + y 0`,
    column `y 1`. -/
theorem embOut_1 (t : Fin cfg1.N) (ib : Fin 4) (ht : t.val / 8 = ib.val)
    (y : ((cfg1.win 2).xblock (cfg1.grid.coords t)).Idx) :
    ((cfg1.win 2).blk t).view.emb y = ix2 (rowIx ib ⟨(y 0).val, (y 0).isLt⟩) ⟨(y 1).val, (y 1).isLt⟩ := by
  obtain ⟨-, -, -, -, e0, e1⟩ := idx1 t
  funext a; apply Fin.ext
  match a with
  | ⟨0, _⟩ =>
    show win1_2.index t (0 : Fin 2) * 1024 + 1 * (y 0).val = 1024 * ib.val + (y 0).val
    omega
  | ⟨1, _⟩ =>
    show win1_2.index t (1 : Fin 2) * 128 + 1 * (y 1).val = (y 1).val
    omega

/-- The output block of a point of row block `ib`, read off an array `G`. -/
theorem readOut_1 (G : Cert.Spec.SNH.Idx → EReal) (t : Fin cfg1.N) (ib : Fin 4) (ht : t.val / 8 = ib.val)
    (y : ((cfg1.win 2).xblock (cfg1.grid.coords t)).Idx) :
    ((cfg1.win 2).blk t).view.read (Elt Ideal) G y
      = G (ix2 (rowIx ib ⟨(y 0).val, (y 0).isLt⟩) ⟨(y 1).val, (y 1).isLt⟩) :=
  congrArg G (embOut_1 t ib ht y)

/-- An index of the output array is in point `t`'s block iff each coordinate is in the block's range on its axis. -/
theorem mem_blkOut_1 (t : Fin cfg1.N) (i : Cert.Spec.SNH.Idx) :
    i ∈ ((cfg1.win 2).blk t).view.set
      ↔ ∀ a : Fin 2, win1_2.index t a * S1024x128.size a ≤ (i a).val
          ∧ (i a).val < win1_2.index t a * S1024x128.size a + S1024x128.size a := by
  show i ∈ ((View.whole main_v9).slice (win1_2.rect t)).set ↔ _
  rw [View.set_slice_whole, Rect.mem_set_unit]
  exact Iff.rfl

/-- The last point of the row block that holds row `r`. -/
theorem lastPt_lt_1 (r : ℕ) (h : r < 4096) : 8 * (r / 1024) + 7 < cfg1.N := by
  show 8 * (r / 1024) + 7 < grid1.N
  rw [N_1]; omega

/-- Every index of the output array lies in a block that is written back: row `r` in the block of the point
    `8 * (r / 1024) + 7`. -/
theorem cover_1 (i : Cert.Spec.SNH.Idx) :
    ∃ t : Fin cfg1.N, (cfg1.win 2).flush t = true ∧ i ∈ ((cfg1.win 2).blk t).view.set := by
  have hi0 : (i 0).val < 4096 := (i 0).isLt
  have hi1 : (i 1).val < 128 := (i 1).isLt
  obtain ⟨t, htv⟩ : ∃ t : Fin cfg1.N, t.val = 8 * ((i 0).val / 1024) + 7 := ⟨⟨_, lastPt_lt_1 _ hi0⟩, rfl⟩
  refine ⟨t, (flush1_2 t).mpr (by omega), ?_⟩
  rw [mem_blkOut_1]
  obtain ⟨-, -, -, -, e0, e1⟩ := idx1 t
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 128 ≤ (i 1).val ∧ (i 1).val < win1_2.index t (1 : Fin 2) * 128 + 128
    omega

/-! ### The operand windows -/

/-- The left operand's block entry `y` at the point of row block `ib`, inner block `kb` is the array's entry at
    row `1024 * ib + y 0`, column `512 * kb + y 1`. -/
theorem embL_1 (t : Fin cfg1.N) (ib : Fin 4) (kb : Fin 8) (ht : t.val = 8 * ib.val + kb.val)
    (y : ((cfg1.win 0).xblock (cfg1.grid.coords t)).Idx) :
    ((cfg1.win 0).blk t).view.emb y
      = ix2 (rowIx ib ⟨(y 0).val, (y 0).isLt⟩) (innerIx kb ⟨(y 1).val, (y 1).isLt⟩) := by
  obtain ⟨e0, e1, -, -, -, -⟩ := idx1 t
  have hk : kb.val < 8 := kb.isLt
  funext a; apply Fin.ext
  match a with
  | ⟨0, _⟩ =>
    show win1_0.index t (0 : Fin 2) * 1024 + 1 * (y 0).val = 1024 * ib.val + (y 0).val
    omega
  | ⟨1, _⟩ =>
    show win1_0.index t (1 : Fin 2) * 512 + 1 * (y 1).val = 512 * kb.val + (y 1).val
    omega

/-- The right operand's block entry `y` at a point of inner block `kb` is the array's entry at row
    `512 * kb + y 0`, column `y 1`. -/
theorem embR_1 (t : Fin cfg1.N) (ib : Fin 4) (kb : Fin 8) (ht : t.val = 8 * ib.val + kb.val)
    (y : ((cfg1.win 1).xblock (cfg1.grid.coords t)).Idx) :
    ((cfg1.win 1).blk t).view.emb y
      = ix2 (innerIx kb ⟨(y 0).val, (y 0).isLt⟩) ⟨(y 1).val, (y 1).isLt⟩ := by
  obtain ⟨-, -, e0, e1, -, -⟩ := idx1 t
  have hk : kb.val < 8 := kb.isLt
  funext a; apply Fin.ext
  match a with
  | ⟨0, _⟩ =>
    show win1_1.index t (0 : Fin 2) * 512 + 1 * (y 0).val = 512 * kb.val + (y 0).val
    omega
  | ⟨1, _⟩ =>
    show win1_1.index t (1 : Fin 2) * 128 + 1 * (y 1).val = (y 1).val
    omega

section
variable {F : FTy → Type} [FloatOps F]
variable (V : (c : Dev nD) → (b : Ref sig .tc) → Buf (Elt F) ((c : Thread nD τ).loc b))

/-- The left operand's block at the point of row block `ib`, inner block `kb`, read at an entry. -/
theorem readL_1 (c : Dev nD) (t : Fin cfg1.N) (ib : Fin 4) (kb : Fin 8) (ht : t.val = 8 * ib.val + kb.val)
    (y : ((cfg1.win 0).xblock (cfg1.grid.coords t)).Idx) :
    Cert.KernelIdeal.Fr.iblk1 V c 0 t y
      = V c (Pipeline.arrRef spec1 0) (ix2 (rowIx ib ⟨(y 0).val, (y 0).isLt⟩) (innerIx kb ⟨(y 1).val, (y 1).isLt⟩)) :=
  congrArg (V c (Pipeline.arrRef spec1 0)) (embL_1 t ib kb ht y)

/-- The right operand's block at a point of inner block `kb`, read at an entry. -/
theorem readR_1 (c : Dev nD) (t : Fin cfg1.N) (ib : Fin 4) (kb : Fin 8) (ht : t.val = 8 * ib.val + kb.val)
    (y : ((cfg1.win 1).xblock (cfg1.grid.coords t)).Idx) :
    Cert.KernelIdeal.Fr.iblk1 V c 1 t y
      = V c (Pipeline.arrRef spec1 1) (ix2 (innerIx kb ⟨(y 0).val, (y 0).isLt⟩) ⟨(y 1).val, (y 1).isLt⟩) :=
  congrArg (V c (Pipeline.arrRef spec1 1)) (embR_1 t ib kb ht y)

end

end Cert.KBlocks

end
-- ==== Proof.KValue0.lean ====
/-
  The first launch's output array, at the ideal values.

  The launch runs its body at the 32 points `t = 8 * ib + kb` of a 4 x 8 grid.  At point `t` the left operand's
  block is rows `1024 * ib ..`, columns `512 * kb ..` of the 4096 x 4096 matrix, the right operand's block is rows
  `512 * kb ..` of the 4096 x 128 matrix.  The accumulator after point `t` is, entry by entry, the running total of
  the block products of row block `ib` up to inner block `kb` (by induction on `kb`: zero plus the first product at
  `kb = 0`, the previous total plus one more product afterwards); after `kb = 7` that total is the full sum over the
  4096 inner positions, the matrix product's entry.  The output block written back at `kb = 7` is the accumulator,
  and the four written blocks cover the 4096 x 128 array, so the array ends as the matrix product.
-/
import proofs.«119342_j36077725286633_2_alg».proof.Proof.KernelIdealFr.Pieces
import proofs.«119342_j36077725286633_2_alg».proof.Proof.KPay
import proofs.«119342_j36077725286633_2_alg».proof.Proof.KAccum
import proofs.«119342_j36077725286633_2_alg».proof.Proof.KBlocks
import Idealize.ShloMosaic.Lib.Pipeline.Value

set_option maxRecDepth 16384

noncomputable section

open scoped BigOperators

namespace Cert.KValue

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block indices of the two operand windows at grid point `t = 8 * i + k`: the left operand's block is
    `(i, k)`, the right operand's `(k, 0)`. -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val % 8 ∧ win0_1.index t 1 = 0 :=
  (by decide +kernel : ∀ t : Fin grid0.N, win0_1.index t 0 = t.val % 8 ∧ win0_1.index t 1 = 0)

/-- The left operand's block at point `8 * ib + kb`, entry `(p, k)`: the matrix at row `1024 * ib + p`, column
    `512 * kb + k`. -/
theorem iblk0_0_apply (c : Dev nD) (t : Fin cfg0.N) (ib : Fin 4) (kb : Fin 8) (ht : t.val = 8 * ib.val + kb.val)
    (p : Fin 1024) (k : Fin 512) :
    (iblk0 (F := Ideal) V c 0 t : Vec Ideal S1024x512 .f32) (ix2 p k)
      = (V c main_arg2 : Cert.Spec.SNN.Idx → EReal) (ix2 (KMath.rowIx ib p) (KMath.innerIx kb k)) := by
  have hi := idx0_0 t
  unfold iblk0
  rw [View.read_apply]
  show V c main_arg2 _ = V c main_arg2 _
  congr 1
  funext a
  apply Fin.ext
  match a with
  | ⟨0, _⟩ => show win0_0.index t 0 * 1024 + 1 * p.val = 1024 * ib.val + p.val; rw [hi.1]; omega
  | ⟨1, _⟩ => show win0_0.index t 1 * 512 + 1 * k.val = 512 * kb.val + k.val; rw [hi.2]; omega

/-- The right operand's block at point `8 * ib + kb`, entry `(k, q)`: the matrix at row `512 * kb + k`, column `q`. -/
theorem iblk0_1_apply (c : Dev nD) (t : Fin cfg0.N) (ib : Fin 4) (kb : Fin 8) (ht : t.val = 8 * ib.val + kb.val)
    (k : Fin 512) (q : Fin 128) :
    (iblk0 (F := Ideal) V c 1 t : Vec Ideal S512x128 .f32) (ix2 k q)
      = (V c main_v7 : Cert.Spec.SNH.Idx → EReal) (ix2 (KMath.innerIx kb k) q) := by
  have hi := idx0_1 t
  unfold iblk0
  rw [View.read_apply]
  show V c main_v7 _ = V c main_v7 _
  congr 1
  funext a
  apply Fin.ext
  match a with
  | ⟨0, _⟩ => show win0_1.index t 0 * 512 + 1 * k.val = 512 * kb.val + k.val; rw [hi.1]; omega
  | ⟨1, _⟩ => show win0_1.index t 1 * 128 + 1 * q.val = q.val; rw [hi.2]; omega

/-- After a point at inner coordinate 0 the accumulator is the zero block plus the product of the point's blocks. -/
theorem acc0_first (c : Dev nD) (t : Fin cfg0.N) (h0 : t.val % 8 = 0) :
    (outsAt0 (F := Ideal) V c t.val t.isLt).2 = k0_pay2 (iblk0 V c 0 t) (iblk0 V c 1 t) (k0_pay1 (F := Ideal)) := by
  have h1 : ¬t.val % 8 = 7 := by omega
  rw [outsAt0_A V c t h0 h1]
  dsimp only
  exact sout0_A_eq c (grid0.coords t) (ms0_0 t) (hs0_0 t) (ms0_1 t) (hs0_1 t) (ms0_2 t) (hs0_2 t) scM0 (Memref.isWhole_whole _)
      ((hcond0_0 t).mpr h0) (fun h => h1 ((hcond0_1 t).mp h)) (iblk0 V c 0 t) (iblk0 V c 1 t)

/-- After any other point it is what the point before left plus the product of the point's blocks. -/
theorem acc0_step (c : Dev nD) (t : Fin cfg0.N) (h0 : ¬t.val % 8 = 0) :
    (outsAt0 (F := Ideal) V c t.val t.isLt).2
      = k0_pay2 (iblk0 V c 0 t) (iblk0 V c 1 t)
          (outsAt0 V c (t.val - 1) (Nat.lt_of_le_of_lt (Nat.sub_le _ _) t.isLt)).2 := by
  by_cases h1 : t.val % 8 = 7
  · rw [outsAt0_C V c t h0 h1]
    dsimp only
    exact sout0_C_eq c (grid0.coords t) (ms0_0 t) (hs0_0 t) (ms0_1 t) (hs0_1 t) (ms0_2 t) (hs0_2 t) scM0 (Memref.isWhole_whole _)
        (fun h => h0 ((hcond0_0 t).mp h)) ((hcond0_1 t).mpr h1) (iblk0 V c 0 t) (iblk0 V c 1 t)
        (outsAt0 V c (t.val - 1) (Nat.lt_of_le_of_lt (Nat.sub_le _ _) t.isLt)).2
  · rw [outsAt0_B V c t h0 h1]
    dsimp only
    exact sout0_B_eq c (grid0.coords t) (ms0_0 t) (hs0_0 t) (ms0_1 t) (hs0_1 t) (ms0_2 t) (hs0_2 t) scM0 (Memref.isWhole_whole _)
        (fun h => h0 ((hcond0_0 t).mp h)) (fun h => h1 ((hcond0_1 t).mp h)) (iblk0 V c 0 t) (iblk0 V c 1 t)
        (outsAt0 V c (t.val - 1) (Nat.lt_of_le_of_lt (Nat.sub_le _ _) t.isLt)).2
/-- The accumulator after point `8 * ib + kb`, entry `(p, q)`: the running total of the block products of row
    block `ib` up to inner block `kb`. -/
theorem acc0_entry (c : Dev nD) (ib : Fin 4) : ∀ (kb : ℕ) (hkb : kb < 8) (n : ℕ) (hn : n < cfg0.N) (e : n = 8 * ib.val + kb)
    (p : Fin 1024) (q : Fin 128),
    (outsAt0 (F := Ideal) V c n hn).2 (ix2 p q) = KMath.accum (V c main_arg2) (V c main_v7) ib kb p q
  | 0, hkb, n, hn, e, p, q => by
    have h0 : (⟨n, hn⟩ : Fin cfg0.N).val % 8 = 0 := by show n % 8 = 0; omega
    refine (congrFun (acc0_first V c ⟨n, hn⟩ h0) (ix2 p q)).trans ?_
    refine (KMath.pay2_apply (iblk0 V c 0 ⟨n, hn⟩) (iblk0 V c 1 ⟨n, hn⟩) (k0_pay1 (F := Ideal)) p q).trans ?_
    show _ = 0 + KMath.part (V c main_arg2) (V c main_v7) ib 0 p q
    refine congrArg₂ (· + ·) (KMath.pay1_apply p q) (Finset.sum_congr rfl fun k _ => ?_)
    exact congrArg₂ (· * ·) (iblk0_0_apply V c ⟨n, hn⟩ ib 0 e p k) (iblk0_1_apply V c ⟨n, hn⟩ ib 0 e k q)
  | kb + 1, hkb, n, hn, e, p, q => by
    have h0 : ¬(⟨n, hn⟩ : Fin cfg0.N).val % 8 = 0 := by show ¬n % 8 = 0; omega
    refine (congrFun (acc0_step V c ⟨n, hn⟩ h0) (ix2 p q)).trans ?_
    refine (KMath.pay2_apply (iblk0 V c 0 ⟨n, hn⟩) (iblk0 V c 1 ⟨n, hn⟩)
      (outsAt0 V c (n - 1) (Nat.lt_of_le_of_lt (Nat.sub_le _ _) hn)).2 p q).trans ?_
    show _ = KMath.accum (V c main_arg2) (V c main_v7) ib kb p q
      + (if h : kb + 1 < 8 then KMath.part (V c main_arg2) (V c main_v7) ib ⟨kb + 1, h⟩ p q else 0)
    rw [dif_pos hkb]
    refine congrArg₂ (· + ·) (acc0_entry c ib kb (by omega) (n - 1) _ (by omega) p q) (Finset.sum_congr rfl fun k _ => ?_)
    exact congrArg₂ (· * ·) (iblk0_0_apply V c ⟨n, hn⟩ ib ⟨kb + 1, hkb⟩ e p k) (iblk0_1_apply V c ⟨n, hn⟩ ib ⟨kb + 1, hkb⟩ e k q)

/-- At the last inner block the accumulator's entry is the matrix product's. -/
theorem acc0_last (c : Dev nD) (t : Fin cfg0.N) (h7 : t.val % 8 = 7) (ib : Fin 4) (ht : t.val / 8 = ib.val)
    (p : Fin 1024) (q : Fin 128) :
    (outsAt0 (F := Ideal) V c t.val t.isLt).2 (ix2 p q)
      = Cert.Spec.prod (V c main_arg2) (V c main_v7) (ix2 (KMath.rowIx ib p) q) :=
  (acc0_entry V c ib 7 (by norm_num) t.val t.isLt (by omega) p q).trans (KMath.accum_last (V c main_arg2) (V c main_v7) ib p q)

/-- At a point of inner coordinate 7 the output block is the accumulator. -/
theorem out0_last (c : Dev nD) (t : Fin cfg0.N) (h7 : t.val % 8 = 7) :
    (outsAt0 (F := Ideal) V c t.val t.isLt).1 = (outsAt0 (F := Ideal) V c t.val t.isLt).2 := by
  have h0 : ¬t.val % 8 = 0 := by omega
  rw [outsAt0_C V c t h0 h7]
  dsimp only
  rw [out0_C_eq c (grid0.coords t) (ms0_0 t) (hs0_0 t) (ms0_1 t) (hs0_1 t) (ms0_2 t) (hs0_2 t) scM0 (Memref.isWhole_whole _)
      (fun h => h0 ((hcond0_0 t).mp h)) ((hcond0_1 t).mpr h7) (iblk0 V c 0 t) (iblk0 V c 1 t)
      (outsAt0 V c (t.val - 1) (Nat.lt_of_le_of_lt (Nat.sub_le _ _) t.isLt)).2,
    sout0_C_eq c (grid0.coords t) (ms0_0 t) (hs0_0 t) (ms0_1 t) (hs0_1 t) (ms0_2 t) (hs0_2 t) scM0 (Memref.isWhole_whole _)
      (fun h => h0 ((hcond0_0 t).mp h)) ((hcond0_1 t).mpr h7) (iblk0 V c 0 t) (iblk0 V c 1 t)
      (outsAt0 V c (t.val - 1) (Nat.lt_of_le_of_lt (Nat.sub_le _ _) t.isLt)).2]

/-- What a write-back writes is its block of the result. -/
theorem flushed0_eq (c : Dev nD) (t : Fin cfg0.N) (hf : (cfg0.win 2).flush t = true) :
    (dat0 (F := Ideal) V c).flushed 2 t
      = ((cfg0.win 2).blk t).view.read (Elt Ideal) (Cert.Spec.prod (V c main_arg2) (V c main_v7)) := by
  have h7 : t.val % 8 = 7 := (flush0_2 t).mp hf
  have hN : t.val < 32 := lt_of_lt_of_eq t.isLt (show cfg0.N = 32 from N_0)
  show (dat0 V c).after 2 t = _
  rw [after0_2]
  funext y
  rw [View.read_apply, Cert.KBlocks.embOut_0 t ⟨t.val / 8, by omega⟩ rfl y]
  have hy : (y : S1024x128.Idx) = ix2 (⟨(y 0).val, (y 0).isLt⟩ : Fin 1024) (⟨(y 1).val, (y 1).isLt⟩ : Fin 128) :=
    funext fun a => by match a with | ⟨0, _⟩ => rfl | ⟨1, _⟩ => rfl
  refine (congrArg (outsAt0 (F := Ideal) V c t.val t.isLt).1 hy).trans ?_
  rw [out0_last V c t h7]
  exact acc0_last V c t h7 ⟨t.val / 8, by omega⟩ rfl _ _

/-- The output array after the launch. -/
theorem final0 (c : Dev nD) :
    (dat0 (F := Ideal) V c).arrAt 2 cfg0.N = Cert.Spec.prod (V c main_arg2) (V c main_v7) :=
  (dat0 (F := Ideal) V c).arrAt_eq_of_cover 2 (Cert.Spec.prod (V c main_arg2) (V c main_v7)) (fun t hf => flushed0_eq V c t hf) (fun i => Cert.KBlocks.cover_0 i)

end Cert.KValue

end
-- ==== Proof.KValue1.lean ====
/-
  The second launch's output array, at the ideal values.

  The launch runs its body at the 32 points `t = 8 * ib + kb` of a 4 x 8 grid, with the same blocks and the same
  accumulation as the first launch: after `kb = 7` the accumulator's entry `(p, q)` is the matrix product's entry
  at row `1024 * ib + p`, column `q`.  The output block written back at `kb = 7` is the accumulator with every
  row divided by the square root of the sum of the squares of the row's 128 entries; the block's 128 columns are the
  whole row of the array, so this is the row of the matrix product divided by its Euclidean norm.  The four written
  blocks cover the 4096 x 128 array.
-/
import proofs.«119342_j36077725286633_2_alg».proof.Proof.KernelIdealFr.Pieces
import proofs.«119342_j36077725286633_2_alg».proof.Proof.KPay
import proofs.«119342_j36077725286633_2_alg».proof.Proof.KAccum
import proofs.«119342_j36077725286633_2_alg».proof.Proof.KBlocks
import Idealize.ShloMosaic.Lib.Pipeline.Value

set_option maxRecDepth 16384

noncomputable section

open scoped BigOperators

namespace Cert.KValue

open Cert.KernelIdeal Cert.KernelIdeal.Gen Cert.KernelIdeal.Fr
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The block indices of the two operand windows at grid point `t = 8 * i + k`: the left operand's block is
    `(i, k)`, the right operand's `(k, 0)`. -/
theorem idx1_0 : ∀ t : Fin cfg1.N, win1_0.index t 0 = t.val / 8 ∧ win1_0.index t 1 = t.val % 8 :=
  (by decide +kernel : ∀ t : Fin grid1.N, win1_0.index t 0 = t.val / 8 ∧ win1_0.index t 1 = t.val % 8)
theorem idx1_1 : ∀ t : Fin cfg1.N, win1_1.index t 0 = t.val % 8 ∧ win1_1.index t 1 = 0 :=
  (by decide +kernel : ∀ t : Fin grid1.N, win1_1.index t 0 = t.val % 8 ∧ win1_1.index t 1 = 0)

/-- The left operand's block at point `8 * ib + kb`, entry `(p, k)`: the matrix at row `1024 * ib + p`, column
    `512 * kb + k`. -/
theorem iblk1_0_apply (c : Dev nD) (t : Fin cfg1.N) (ib : Fin 4) (kb : Fin 8) (ht : t.val = 8 * ib.val + kb.val)
    (p : Fin 1024) (k : Fin 512) :
    (iblk1 (F := Ideal) V c 0 t : Vec Ideal S1024x512 .f32) (ix2 p k)
      = (V c main_arg3 : Cert.Spec.SNN.Idx → EReal) (ix2 (KMath.rowIx ib p) (KMath.innerIx kb k)) := by
  have hi := idx1_0 t
  unfold iblk1
  rw [View.read_apply]
  show V c main_arg3 _ = V c main_arg3 _
  congr 1
  funext a
  apply Fin.ext
  match a with
  | ⟨0, _⟩ => show win1_0.index t 0 * 1024 + 1 * p.val = 1024 * ib.val + p.val; rw [hi.1]; omega
  | ⟨1, _⟩ => show win1_0.index t 1 * 512 + 1 * k.val = 512 * kb.val + k.val; rw [hi.2]; omega

/-- The right operand's block at point `8 * ib + kb`, entry `(k, q)`: the matrix at row `512 * kb + k`, column `q`. -/
theorem iblk1_1_apply (c : Dev nD) (t : Fin cfg1.N) (ib : Fin 4) (kb : Fin 8) (ht : t.val = 8 * ib.val + kb.val)
    (k : Fin 512) (q : Fin 128) :
    (iblk1 (F := Ideal) V c 1 t : Vec Ideal S512x128 .f32) (ix2 k q)
      = (V c main_v8 : Cert.Spec.SNH.Idx → EReal) (ix2 (KMath.innerIx kb k) q) := by
  have hi := idx1_1 t
  unfold iblk1
  rw [View.read_apply]
  show V c main_v8 _ = V c main_v8 _
  congr 1
  funext a
  apply Fin.ext
  match a with
  | ⟨0, _⟩ => show win1_1.index t 0 * 512 + 1 * k.val = 512 * kb.val + k.val; rw [hi.1]; omega
  | ⟨1, _⟩ => show win1_1.index t 1 * 128 + 1 * q.val = q.val; rw [hi.2]; omega

/-- After a point at inner coordinate 0 the accumulator is the zero block plus the product of the point's blocks. -/
theorem acc1_first (c : Dev nD) (t : Fin cfg1.N) (h0 : t.val % 8 = 0) :
    (outsAt1 (F := Ideal) V c t.val t.isLt).2 = k1_pay2 (iblk1 V c 0 t) (iblk1 V c 1 t) (k1_pay1 (F := Ideal)) := by
  have h1 : ¬t.val % 8 = 7 := by omega
  rw [outsAt1_A V c t h0 h1]
  dsimp only
  exact sout1_A_eq c (grid1.coords t) (ms1_0 t) (hs1_0 t) (ms1_1 t) (hs1_1 t) (ms1_2 t) (hs1_2 t) scM1 (Memref.isWhole_whole _)
      ((hcond1_0 t).mpr h0) (fun h => h1 ((hcond1_1 t).mp h)) (iblk1 V c 0 t) (iblk1 V c 1 t)

/-- After any other point it is what the point before left plus the product of the point's blocks. -/
theorem acc1_step (c : Dev nD) (t : Fin cfg1.N) (h0 : ¬t.val % 8 = 0) :
    (outsAt1 (F := Ideal) V c t.val t.isLt).2
      = k1_pay2 (iblk1 V c 0 t) (iblk1 V c 1 t)
          (outsAt1 V c (t.val - 1) (Nat.lt_of_le_of_lt (Nat.sub_le _ _) t.isLt)).2 := by
  by_cases h1 : t.val % 8 = 7
  · rw [outsAt1_C V c t h0 h1]
    dsimp only
    exact sout1_C_eq c (grid1.coords t) (ms1_0 t) (hs1_0 t) (ms1_1 t) (hs1_1 t) (ms1_2 t) (hs1_2 t) scM1 (Memref.isWhole_whole _)
        (fun h => h0 ((hcond1_0 t).mp h)) ((hcond1_1 t).mpr h1) (iblk1 V c 0 t) (iblk1 V c 1 t)
        (outsAt1 V c (t.val - 1) (Nat.lt_of_le_of_lt (Nat.sub_le _ _) t.isLt)).2
  · rw [outsAt1_B V c t h0 h1]
    dsimp only
    exact sout1_B_eq c (grid1.coords t) (ms1_0 t) (hs1_0 t) (ms1_1 t) (hs1_1 t) (ms1_2 t) (hs1_2 t) scM1 (Memref.isWhole_whole _)
        (fun h => h0 ((hcond1_0 t).mp h)) (fun h => h1 ((hcond1_1 t).mp h)) (iblk1 V c 0 t) (iblk1 V c 1 t)
        (outsAt1 V c (t.val - 1) (Nat.lt_of_le_of_lt (Nat.sub_le _ _) t.isLt)).2
/-- The accumulator after point `8 * ib + kb`, entry `(p, q)`: the running total of the block products of row
    block `ib` up to inner block `kb`. -/
theorem acc1_entry (c : Dev nD) (ib : Fin 4) : ∀ (kb : ℕ) (hkb : kb < 8) (n : ℕ) (hn : n < cfg1.N) (e : n = 8 * ib.val + kb)
    (p : Fin 1024) (q : Fin 128),
    (outsAt1 (F := Ideal) V c n hn).2 (ix2 p q) = KMath.accum (V c main_arg3) (V c main_v8) ib kb p q
  | 0, hkb, n, hn, e, p, q => by
    have h0 : (⟨n, hn⟩ : Fin cfg1.N).val % 8 = 0 := by show n % 8 = 0; omega
    refine (congrFun (acc1_first V c ⟨n, hn⟩ h0) (ix2 p q)).trans ?_
    refine (KMath.pay2_apply' (iblk1 V c 0 ⟨n, hn⟩) (iblk1 V c 1 ⟨n, hn⟩) (k1_pay1 (F := Ideal)) p q).trans ?_
    show _ = 0 + KMath.part (V c main_arg3) (V c main_v8) ib 0 p q
    refine congrArg₂ (· + ·) (KMath.pay1_apply' p q) (Finset.sum_congr rfl fun k _ => ?_)
    exact congrArg₂ (· * ·) (iblk1_0_apply V c ⟨n, hn⟩ ib 0 e p k) (iblk1_1_apply V c ⟨n, hn⟩ ib 0 e k q)
  | kb + 1, hkb, n, hn, e, p, q => by
    have h0 : ¬(⟨n, hn⟩ : Fin cfg1.N).val % 8 = 0 := by show ¬n % 8 = 0; omega
    refine (congrFun (acc1_step V c ⟨n, hn⟩ h0) (ix2 p q)).trans ?_
    refine (KMath.pay2_apply' (iblk1 V c 0 ⟨n, hn⟩) (iblk1 V c 1 ⟨n, hn⟩)
      (outsAt1 V c (n - 1) (Nat.lt_of_le_of_lt (Nat.sub_le _ _) hn)).2 p q).trans ?_
    show _ = KMath.accum (V c main_arg3) (V c main_v8) ib kb p q
      + (if h : kb + 1 < 8 then KMath.part (V c main_arg3) (V c main_v8) ib ⟨kb + 1, h⟩ p q else 0)
    rw [dif_pos hkb]
    refine congrArg₂ (· + ·) (acc1_entry c ib kb (by omega) (n - 1) _ (by omega) p q) (Finset.sum_congr rfl fun k _ => ?_)
    exact congrArg₂ (· * ·) (iblk1_0_apply V c ⟨n, hn⟩ ib ⟨kb + 1, hkb⟩ e p k) (iblk1_1_apply V c ⟨n, hn⟩ ib ⟨kb + 1, hkb⟩ e k q)

/-- At the last inner block the accumulator's entry is the matrix product's. -/
theorem acc1_last (c : Dev nD) (t : Fin cfg1.N) (h7 : t.val % 8 = 7) (ib : Fin 4) (ht : t.val / 8 = ib.val)
    (p : Fin 1024) (q : Fin 128) :
    (outsAt1 (F := Ideal) V c t.val t.isLt).2 (ix2 p q)
      = Cert.Spec.prod (V c main_arg3) (V c main_v8) (ix2 (KMath.rowIx ib p) q) :=
  (acc1_entry V c ib 7 (by norm_num) t.val t.isLt (by omega) p q).trans (KMath.accum_last (V c main_arg3) (V c main_v8) ib p q)

/-- At a point of inner coordinate 7 the output block is the accumulator with each row divided by its norm. -/
theorem out1_last (c : Dev nD) (t : Fin cfg1.N) (h7 : t.val % 8 = 7) :
    (outsAt1 (F := Ideal) V c t.val t.isLt).1
      = k1_pay3 (outsAt1 (F := Ideal) V c t.val t.isLt).2 (outsAt1 (F := Ideal) V c t.val t.isLt).2
          (outsAt1 (F := Ideal) V c t.val t.isLt).2 := by
  have h0 : ¬t.val % 8 = 0 := by omega
  rw [outsAt1_C V c t h0 h7]
  dsimp only
  rw [out1_C_eq c (grid1.coords t) (ms1_0 t) (hs1_0 t) (ms1_1 t) (hs1_1 t) (ms1_2 t) (hs1_2 t) scM1 (Memref.isWhole_whole _)
      (fun h => h0 ((hcond1_0 t).mp h)) ((hcond1_1 t).mpr h7) (iblk1 V c 0 t) (iblk1 V c 1 t)
      (outsAt1 V c (t.val - 1) (Nat.lt_of_le_of_lt (Nat.sub_le _ _) t.isLt)).2,
    sout1_C_eq c (grid1.coords t) (ms1_0 t) (hs1_0 t) (ms1_1 t) (hs1_1 t) (ms1_2 t) (hs1_2 t) scM1 (Memref.isWhole_whole _)
      (fun h => h0 ((hcond1_0 t).mp h)) ((hcond1_1 t).mpr h7) (iblk1 V c 0 t) (iblk1 V c 1 t)
      (outsAt1 V c (t.val - 1) (Nat.lt_of_le_of_lt (Nat.sub_le _ _) t.isLt)).2]

/-- A row of entries that agree with a row of a matrix, each divided by the root of the sum of the row's squares, is
    that row of the matrix divided by its Euclidean norm. -/
theorem rowUnit_entry (s : Vec Ideal S1024x128 .f32) (P : Cert.Spec.SNH.Idx → EReal) (r : Fin 4096) (p : Fin 1024)
    (q : Fin 128) (hs : ∀ n : Fin 128, s (ix2 p n) = P (ix2 r n)) :
    Ideal.div (s (ix2 p q)) (Ideal.sqrt (∑ n : Fin 128, s (ix2 p n) * s (ix2 p n))) = Cert.Spec.rowUnit P (ix2 r q) := by
  rw [Cert.Spec.rowUnit_ix2, hs q]
  exact congrArg (fun z => Ideal.div _ (Ideal.sqrt z)) (Finset.sum_congr rfl fun n _ => by rw [hs n])

/-- What a write-back writes is its block of the result. -/
theorem flushed1_eq (c : Dev nD) (t : Fin cfg1.N) (hf : (cfg1.win 2).flush t = true) :
    (dat1 (F := Ideal) V c).flushed 2 t
      = ((cfg1.win 2).blk t).view.read (Elt Ideal) (Cert.Spec.rowUnit (Cert.Spec.prod (V c main_arg3) (V c main_v8))) := by
  have h7 : t.val % 8 = 7 := (flush1_2 t).mp hf
  have hN : t.val < 32 := lt_of_lt_of_eq t.isLt (show cfg1.N = 32 from N_1)
  show (dat1 V c).after 2 t = _
  rw [after1_2]
  funext y
  rw [View.read_apply, Cert.KBlocks.embOut_1 t ⟨t.val / 8, by omega⟩ rfl y]
  have hy : (y : S1024x128.Idx) = ix2 (⟨(y 0).val, (y 0).isLt⟩ : Fin 1024) (⟨(y 1).val, (y 1).isLt⟩ : Fin 128) :=
    funext fun a => by match a with | ⟨0, _⟩ => rfl | ⟨1, _⟩ => rfl
  refine (congrArg (outsAt1 (F := Ideal) V c t.val t.isLt).1 hy).trans ?_
  rw [out1_last V c t h7]
  refine (KMath.pay3_apply (outsAt1 (F := Ideal) V c t.val t.isLt).2 ⟨(y 0).val, (y 0).isLt⟩ ⟨(y 1).val, (y 1).isLt⟩).trans ?_
  exact rowUnit_entry (outsAt1 (F := Ideal) V c t.val t.isLt).2 (Cert.Spec.prod (V c main_arg3) (V c main_v8))
    (KMath.rowIx ⟨t.val / 8, by omega⟩ ⟨(y 0).val, (y 0).isLt⟩) ⟨(y 0).val, (y 0).isLt⟩ ⟨(y 1).val, (y 1).isLt⟩
    (fun n => acc1_last V c t h7 ⟨t.val / 8, by omega⟩ rfl _ n)

/-- The output array after the launch. -/
theorem final1 (c : Dev nD) :
    (dat1 (F := Ideal) V c).arrAt 2 cfg1.N = Cert.Spec.rowUnit (Cert.Spec.prod (V c main_arg3) (V c main_v8)) :=
  (dat1 (F := Ideal) V c).arrAt_eq_of_cover 2 (Cert.Spec.rowUnit (Cert.Spec.prod (V c main_arg3) (V c main_v8))) (fun t hf => flushed1_eq V c t hf) (fun i => Cert.KBlocks.cover_1 i)

end Cert.KValue

end
-- ==== Proof.KValue.lean ====
/-
  The two launches' output arrays, at the ideal values: the first launch leaves in its output array the matrix
  product of its two operand arrays, the second the matrix product of its two operand arrays with every row divided by
  its Euclidean norm.
-/
import proofs.«119342_j36077725286633_2_alg».proof.Proof.KValue0
import proofs.«119342_j36077725286633_2_alg».proof.Proof.KValue1

noncomputable section

namespace Cert.KValue

open Cert.KernelIdeal Cert.KernelIdeal.Gen Cert.KernelIdeal.Fr
open Idealize.ShloMosaic Idealize.ShloMosaic.TcCoe
open Idealize.SL.Sem

variable (V : (c : Dev nD) → (b : Ref sig .tc) → Buf (Elt Ideal) ((c : Thread nD τ).loc b))

/-- After the first launch its output array is the product of the square matrix with the session matrix. -/
theorem arr0 (c : Dev nD) :
    (Cert.KernelIdeal.Fr.dat0 (F := Ideal) V c).arrAt 2 cfg0.N = Cert.Spec.prod (V c main_arg2) (V c main_v7) :=
  final0 V c

/-- After the second launch its output array is the product of the square matrix with the first launch's result,
    every row divided by its Euclidean norm. -/
theorem arr1 (c : Dev nD) :
    (Cert.KernelIdeal.Fr.dat1 (F := Ideal) V c).arrAt 2 cfg1.N
      = Cert.Spec.rowUnit (Cert.Spec.prod (V c main_arg3) (V c main_v8)) :=
  final1 V c

end Cert.KValue

end
-- ==== Proof.KPrefix.lean ====
/-
  The session matrix on the kernel program's side is the reference's.

  Before its two launches the kernel program runs eleven host operations: the two integer constants 0 and
  100000 broadcast to the index array's shape, the comparison "index < 0", the sum "index + 100000", the choice
  between the two (a negative index counts from the end of the table), the index array given a trailing unit axis,
  the gather of the table's rows at those indices, the zero word, and the sum over the 50 session positions.  The
  reference program begins with the same eleven operations on the same two arguments.  So what the kernel program's
  buffer of the session matrix holds when the first launch starts is the reference's session matrix of the launch
  contents of the table and of the index array: each of the eleven buffers is read back as its operation applied to
  the buffers it reads, and the resulting term is the reference's, the two programs' shapes and gather dimension
  numbers being the same data under two names.
-/
import proofs.«119342_j36077725286633_2_alg».proof.Proof.KernelIdealFr.Main
import proofs.«119342_j36077725286633_2_alg».proof.Proof.Gen.ReferenceIdeal.Read
import proofs.«119342_j36077725286633_2_alg».proof.Proof.Spec
import Idealize.ShloMosaic.Lib.StableHlo.Run

noncomputable section

namespace Cert.KPrefix

open Idealize.ShloMosaic Idealize.ShloMosaic.TcCoe Idealize.SL.Sem

/-- The two programs' gather dimension numbers are the same record. -/
theorem gather_eq :
    Cert.KernelIdeal.gather_S100000x128_S4096x50x1_S4096x50x128_2_0_n_n_0_2_1128
      = Cert.ReferenceIdeal.gather_S100000x128_S4096x50x1_S4096x50x128_2_0_n_n_0_2_1128 := rfl

/-- What the kernel program's session-matrix buffer holds after its host operations is the reference's session
    matrix of the table's and the index array's launch contents. -/
theorem session_eq (m : (ℓ : Loc Cert.KernelIdeal.nD Cert.KernelIdeal.τ Cert.KernelIdeal.sig) → Buf (Elt Ideal) ℓ)
    (c : Dev Cert.KernelIdeal.nD) :
    (Cert.KernelIdeal.Fr.E1 (F := Ideal) m c Cert.KernelIdeal.main_v7 : Cert.Spec.SNH.Idx → EReal)
      = Cert.ReferenceIdeal.Read.val_main_v7 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (fun b => m (c, b)) (Proc.devRef .tc Cert.KernelIdeal.main_v7) = _
  after_results
  unfold Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

end Cert.KPrefix

end
-- ==== Proof.KResult.lean ====
/-
  The idealized kernel's result buffer as the function of the arguments.

  The second launch leaves in the result buffer the rows of D · x scaled to unit length, where x is what the first
  launch left in its own result buffer, A · r, and r is the session matrix the host operations built; D and A are
  the two square argument matrices, which no operation writes.  So the result is G r A D.
-/
import proofs.«119342_j36077725286633_2_alg».proof.Proof.KernelIdealFr.Main
import proofs.«119342_j36077725286633_2_alg».proof.Proof.KValue
import proofs.«119342_j36077725286633_2_alg».proof.Proof.KPrefix
import proofs.«119342_j36077725286633_2_alg».proof.Proof.Spec

noncomputable section

namespace Cert.KResult

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ)

/-- What the first launch leaves in its result buffer: A · r. -/
theorem first_eq (c : Dev nD) :
    (E2 (F := Ideal) m c main_v8 : Cert.Spec.SNH.Idx → EReal)
      = Cert.Spec.prod (m ((c.tc : Thread nD τ).loc main_arg2))
          (Cert.ReferenceIdeal.Read.val_main_v7 (F := Ideal) (m ((c.tc : Thread nD τ).loc main_arg0)) (m ((c.tc : Thread nD τ).loc main_arg1))) := by
  refine (B2_arr m c 2).trans ((Cert.KValue.arr0 (E1 m) c).trans ?_)
  rw [show E1 m c main_arg2 = m ((c.tc : Thread nD τ).loc main_arg2) from B1_arg m c main_arg2 (by decide), Cert.KPrefix.session_eq m c]

/-- What the second launch leaves in the program's result buffer: G r A D. -/
theorem result_eq (c : Dev nD) :
    ((dat1 (F := Ideal) (E2 m) c).arrAt 2 cfg1.N : Cert.Spec.SNH.Idx → EReal)
      = Cert.Spec.G (Cert.ReferenceIdeal.Read.val_main_v7 (F := Ideal) (m ((c.tc : Thread nD τ).loc main_arg0)) (m ((c.tc : Thread nD τ).loc main_arg1)))
          (m ((c.tc : Thread nD τ).loc main_arg2)) (m ((c.tc : Thread nD τ).loc main_arg3)) := by
  refine (Cert.KValue.arr1 (E2 m) c).trans ?_
  rw [show E2 m c main_arg3 = m ((c.tc : Thread nD τ).loc main_arg3) from B2_main_arg3 m c, first_eq m c]
  rfl

end Cert.KResult

end
-- ==== Proof.LibRealSum.lean ====
/-
  Extended reals that are real numbers: closure facts, for any index types.

  `IsReal x` says the extended real `x` is the coercion of a real number (neither +∞ nor −∞).
  * The coercion from the reals commutes with finite sums (`coe_sum`).
  * Sums, products and finite sums of real extended reals are real (`IsReal.add`, `IsReal.mul`,
    `IsReal.sum`).
  * The fold of `max` from −∞ over real values is −∞ on the empty set and real on any other finite
    set (`fold_max_real`): a row maximum started at −∞ is a real number as soon as the row is not empty.
  These are what is needed to use distributivity, which the extended reals have only away from the
  infinities.  Imports Mathlib only.
-/
import Mathlib.Data.EReal.Operations
import Mathlib.Algebra.BigOperators.Group.Finset.Basic

namespace Cert.LibRealSum

/-- The coercion of reals into the extended reals commutes with finite sums. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An extended real that is the coercion of a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} (t : Finset ι) (f : ι → EReal) (h : ∀ k, IsReal (f k)) : IsReal (∑ k ∈ t, f k) := by
  choose g hg using h
  exact ⟨∑ k ∈ t, g k, by rw [coe_sum]; exact Finset.sum_congr rfl fun k _ => hg k⟩

/-- The fold of `max` from −∞ over real values is −∞ on the empty set and real otherwise. -/
theorem fold_max_real {ι : Type*} (t : Finset ι) (f : ι → EReal) (hf : ∀ k, IsReal (f k)) :
    (t = ∅ ∧ t.fold max ⊥ f = ⊥) ∨ IsReal (t.fold max ⊥ f) := by
  classical
  induction t using Finset.induction_on with
  | empty => exact Or.inl ⟨rfl, Finset.fold_empty⟩
  | insert a t ha ih =>
    refine Or.inr ?_
    rw [Finset.fold_insert ha]
    obtain ⟨r, hr⟩ := hf a
    rcases ih with ⟨_, h0⟩ | ⟨M, hM⟩
    · rw [h0, hr]; exact ⟨r, max_eq_left bot_le⟩
    · rw [hM, hr]; exact ⟨max r M, (EReal.coe_strictMono.monotone.map_max).symm⟩

end Cert.LibRealSum
-- ==== Proof.RefAssoc.lean ====
/-
  Regrouping a triple product of matrices whose entries are real numbers.

  For families `D k`, `A k j`, `r j` of extended reals over finite index types,
      Σ_j (Σ_k D k * A k j) * r j  =  Σ_k D k * (Σ_j A k j * r j).
  On the extended reals multiplication does not distribute over addition at the infinities, so the
  identity is proved only when every entry is the coercion of a real number: choose the real
  witnesses, move the coercion outside the products and the sums, and conclude in the real numbers by
  distributivity, associativity and the exchange of the two finite sums.
-/
import proofs.«119342_j36077725286633_2_alg».proof.Proof.LibRealSum
import Mathlib.Algebra.BigOperators.Ring.Finset
import Mathlib.Algebra.BigOperators.Group.Finset.Sigma

open scoped BigOperators

namespace Cert.RefSide

open Cert.LibRealSum

/-- The identity over the real numbers. -/
theorem regroup_real {ι κ : Type*} [Fintype ι] [Fintype κ] (d : κ → ℝ) (a : κ → ι → ℝ) (r : ι → ℝ) :
    ∑ j, (∑ k, d k * a k j) * r j = ∑ k, d k * ∑ j, a k j * r j := by
  simp only [Finset.sum_mul, Finset.mul_sum]
  rw [Finset.sum_comm]
  exact Finset.sum_congr rfl fun k _ => Finset.sum_congr rfl fun j _ => mul_assoc _ _ _

/-- The identity over the extended reals, for real entries. -/
theorem regroup {ι κ : Type*} [Fintype ι] [Fintype κ] (D : κ → EReal) (A : κ → ι → EReal) (r : ι → EReal)
    (hD : ∀ k, ∃ x : ℝ, D k = (x : EReal)) (hA : ∀ k j, ∃ x : ℝ, A k j = (x : EReal))
    (hr : ∀ j, ∃ x : ℝ, r j = (x : EReal)) :
    ∑ j, (∑ k, D k * A k j) * r j = ∑ k, D k * ∑ j, A k j * r j := by
  choose d hd using hD
  choose a ha using hA
  choose s hs using hr
  have hl : ∀ j, (∑ k, D k * A k j) * r j = (((∑ k, d k * a k j) * s j : ℝ) : EReal) := fun j => by
    rw [EReal.coe_mul, coe_sum, hs j]
    exact congrArg (· * (s j : EReal)) (Finset.sum_congr rfl fun k _ => by rw [hd k, ha k j, EReal.coe_mul])
  have hrr : ∀ k, D k * ∑ j, A k j * r j = ((d k * ∑ j, a k j * s j : ℝ) : EReal) := fun k => by
    rw [EReal.coe_mul, coe_sum, hd k]
    exact congrArg ((d k : EReal) * ·) (Finset.sum_congr rfl fun j _ => by rw [ha k j, hs j, EReal.coe_mul])
  rw [Finset.sum_congr rfl fun j _ => hl j, Finset.sum_congr rfl fun k _ => hrr k, ← coe_sum, ← coe_sum,
    regroup_real]

end Cert.RefSide
-- ==== Proof.RefReal.lean ====
/-
  Every entry of the session matrix is a real number when every entry of the embedding table is.

  The session matrix's entry `(j, n)` is the zero word plus the sum, over the 50 session positions, of a
  gathered entry; a gathered entry is the table read at a computed index, hence one of the table's entries;
  the zero word is the real number 0; and a finite sum of real numbers is real.
-/
import proofs.«119342_j36077725286633_2_alg».proof.Proof.Gen.ReferenceIdeal.Read
import proofs.«119342_j36077725286633_2_alg».proof.Proof.LibRealSum

noncomputable section

open scoped BigOperators

namespace Cert.RefSide

open Cert.ReferenceIdeal Idealize.ShloMosaic Idealize.ShloMosaic.ValueIdx Cert.LibRealSum

variable [Cert.ReferenceIdeal.Facts]

/-- A gathered entry is an entry of the table. -/
theorem gathered_real (x0 : (⟨S100000x128, .f32⟩ : BufTy).Contents (Elt Ideal))
    (x1 : (⟨S4096x50, .i32⟩ : BufTy).Contents (Elt Ideal))
    (h0 : ∀ i, ∃ a : ℝ, x0 i = (a : EReal)) (j : S4096x50x128.Idx) :
    ∃ a : ℝ, Read.val_main_v6 (F := Ideal) x0 x1 j = (a : EReal) :=
  h0 _

/-- Every entry of the session matrix is a real number. -/
theorem session_real (x0 : (⟨S100000x128, .f32⟩ : BufTy).Contents (Elt Ideal))
    (x1 : (⟨S4096x50, .i32⟩ : BufTy).Contents (Elt Ideal))
    (h0 : ∀ i, ∃ a : ℝ, x0 i = (a : EReal)) (idx : S4096x128.Idx) :
    ∃ a : ℝ, Read.val_main_v7 (F := Ideal) x0 x1 idx = (a : EReal) := by
  rw [Read.val_main_v7_apply]
  refine IsReal.add ⟨0, ?_⟩ (IsReal.sum _ _ fun k => gathered_real x0 x1 h0 _)
  rw [Read.val_main_cst_apply]
  exact Ideal.ofBits_zero_f32

end Cert.RefSide

end
-- ==== Proof.LibFiniteInput.lean ====
/-
  From "all entries have absolute value below +∞" to "every entry is a real number", at ANY shape.

  A finiteness precondition on a float array x is the array-language expression  all (|x| < +∞) : a reduction by
  "and", from the constant 1, of the entrywise comparison of |x| with the +∞ pattern broadcast from a scalar, over
  all axes into a single result.  If that result is 1 then the comparison is 1 at every entry (`all_real`); and on the
  extended reals  max x (−x) < +∞  fails at both infinities, so the entry is the coercion of a real number
  (`real_of_abs_lt_top`).  The +∞ pattern of f32 is `0x7F800000` (`inf_eq`).  Stated for any shape `s`, any list of
  reduced axes, and the shape and reduction facts as variables, so that it applies to a printed predicate's terms as
  they stand.  Imports only the library.
-/
import Idealize.ShloMosaic.Lib.ReduceAll
import Idealize.ShloMosaic.Lib.ValueIdx
import Idealize.ShloMosaic.PureOps.Ideal

noncomputable section

namespace Cert.LibFiniteInput

open Idealize.ShloMosaic Idealize.ShloMosaic.ValueIdx

/-- The scalar shape has one index. -/
instance : Subsingleton (⟨0, ![]⟩ : Shape).Idx := ⟨fun a b => funext fun d => d.elim0⟩

/-- The f32 pattern `0x7F800000` denotes `+∞`. -/
theorem inf_eq : Ideal.ofBits .f32 0x7F800000#32 = (⊤ : EReal) := by
  simp [Ideal.ofBits, Ideal.ieee]

/-- An extended real whose absolute value is below `+∞` is a real number. -/
theorem real_of_abs_lt_top (x : EReal) (h : max x (-x) < (⊤ : EReal)) : ∃ r : ℝ, x = (r : EReal) := by
  induction x using EReal.rec with
  | bot => exact absurd h (by simp)
  | coe r => exact ⟨r, rfl⟩
  | top => exact absurd h (by simp)

/-- One array: if `all (|x| < +∞)` is 1, every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ix0 = 1#1) (i : s.Idx) : ∃ r : ℝ, x i = (r : EReal) := by
  have h1 := Host.reduce_andi_all _ _ hr hu ix0 e i
  have h2 : BitVec.ofBool (decide (max (x i) (-(x i)) < Ideal.ofBits .f32 0x7F800000#32)) = 1#1 := h1
  rw [inf_eq] at h2
  refine real_of_abs_lt_top (x i) ?_
  by_contra hn
  rw [decide_eq_false hn] at h2
  exact absurd h2 (by decide)

end Cert.LibFiniteInput

end
-- ==== Proof.RefSide.lean ====
/-
  The reference program computes the specification's function of the session matrix, and the
  finiteness precondition makes the three float inputs it reads real-valued.

  Write `D` for the fourth argument, `A` for the third and `r` for the session matrix (entry `(j, n)`: the sum
  over the 50 session positions of the gathered embedding entries).  The reference forms `(D · A) · r`,
      y (i, n) = Σ_j (Σ_k D (i, k) * A (k, j)) * r (j, n),
  then divides each entry by the square root of the sum of the squares of its row.  The specification forms
  `D · (A · r)`,
      y' (i, n) = Σ_k D (i, k) * (Σ_j A (k, j) * r (j, n)),
  and scales the rows the same way.  Every entry of `D`, `A` and `r` is a real number, so the two groupings
  agree (distributivity and the exchange of two finite sums, valid on the extended reals away from the
  infinities); the row scaling is then the same function applied to the same matrix.  The sum of squares
  starts from the zero word, which is the number 0.
-/
import proofs.«119342_j36077725286633_2_alg».proof.Proof.Gen.ReferenceIdeal.Read
import proofs.«119342_j36077725286633_2_alg».proof.Proof.Spec
import proofs.«119342_j36077725286633_2_alg».proof.Pre_finite_inputs
import proofs.«119342_j36077725286633_2_alg».proof.Proof.Gen.Pre_finite_inputs
import proofs.«119342_j36077725286633_2_alg».proof.Proof.RefAssoc
import proofs.«119342_j36077725286633_2_alg».proof.Proof.RefReal
import proofs.«119342_j36077725286633_2_alg».proof.Proof.LibFiniteInput
import Idealize.ShloMosaic.Lib.Affine

noncomputable section

open scoped BigOperators

namespace Cert.RefSide

open Cert.ReferenceIdeal Idealize.ShloMosaic Idealize.ShloMosaic.ValueIdx

variable [Cert.ReferenceIdeal.Facts] [Cert.Pre_finite_inputs.Facts]

/-! ## The reference's operand indices, at an index given by its coordinates -/

/-- Left operand of the second product at `(i, n)`, inner position `k`: `(i, k)`. -/
theorem lidx_v9_ix2 (i : Fin 4096) (n : Fin 128) (k : Fin 4096) :
    Read.lidx_main_v9 (ix2 i n) k = ix2 i k := by
  funext a; match a with | ⟨0, _⟩ => rfl | ⟨1, _⟩ => rfl

/-- Right operand of the second product at `(i, n)`, inner position `k`: `(k, n)`. -/
theorem ridx_v9_ix2 (i : Fin 4096) (n : Fin 128) (k : Fin 4096) :
    Read.ridx_main_v9 (ix2 i n) k = ix2 k n := by
  funext a; match a with | ⟨0, _⟩ => rfl | ⟨1, _⟩ => rfl

/-- Left operand of the first product at `(i, j)`, inner position `k`: `(i, k)`. -/
theorem lidx_v8_ix2 (i j k : Fin 4096) :
    Read.lidx_main_v8 (ix2 i j) k = ix2 i k := by
  funext a; match a with | ⟨0, _⟩ => rfl | ⟨1, _⟩ => rfl

/-- Right operand of the first product at `(i, j)`, inner position `k`: `(k, j)`. -/
theorem ridx_v8_ix2 (i j k : Fin 4096) :
    Read.ridx_main_v8 (ix2 i j) k = ix2 k j := by
  funext a; match a with | ⟨0, _⟩ => rfl | ⟨1, _⟩ => rfl

/-- The row norm broadcast back to `(i, n)` reads the squares at `(i, q)`, `q` the column summed over. -/
theorem idx_norm_ix2 (i : Fin 4096) (n q : Fin 128) :
    Read.idx_main_call0_v1 (Read.idx_main_call0_v2 (Read.idx_main_v11 (ix2 i n))) q = ix2 i q := by
  funext a; match a with | ⟨0, _⟩ => rfl | ⟨1, _⟩ => rfl

/-! ## The product, regrouped -/

/-- The reference's `(D · A) · r` at an entry is the specification's `D · (A · r)` there. -/
theorem v9_ix2
    (x0 : (⟨S100000x128, .f32⟩ : BufTy).Contents (Elt Ideal)) (x1 : (⟨S4096x50, .i32⟩ : BufTy).Contents (Elt Ideal))
    (x2 x3 : (⟨S4096x4096, .f32⟩ : BufTy).Contents (Elt Ideal))
    (h0 : ∀ i, ∃ a : ℝ, x0 i = (a : EReal)) (h2 : ∀ i, ∃ a : ℝ, x2 i = (a : EReal)) (h3 : ∀ i, ∃ a : ℝ, x3 i = (a : EReal))
    (i : Fin 4096) (n : Fin 128) :
    Read.val_main_v9 (F := Ideal) x0 x1 x2 x3 (ix2 i n)
      = Cert.Spec.prod x3 (Cert.Spec.prod x2 (Read.val_main_v7 (F := Ideal) x0 x1)) (ix2 i n) := by
  rw [Read.val_main_v9_apply, Cert.Spec.prod_ix2]
  simp only [lidx_v9_ix2, ridx_v9_ix2, Read.val_main_v8_apply, lidx_v8_ix2, ridx_v8_ix2, Cert.Spec.prod_ix2]
  exact regroup (fun k => x3 (ix2 i k)) (fun k j => x2 (ix2 k j))
    (fun j => Read.val_main_v7 (F := Ideal) x0 x1 (ix2 j n))
    (fun k => h3 _) (fun k j => h2 _) (fun j => session_real x0 x1 h0 _)

/-! ## The reference's result -/

/-- The reference's result is the specification's function of the session matrix, `A` and `D`. -/
theorem ref_value
    (x0 : (⟨S100000x128, .f32⟩ : BufTy).Contents (Elt Ideal)) (x1 : (⟨S4096x50, .i32⟩ : BufTy).Contents (Elt Ideal))
    (x2 x3 : (⟨S4096x4096, .f32⟩ : BufTy).Contents (Elt Ideal))
    (h0 : ∀ i, ∃ a : ℝ, x0 i = (a : EReal)) (h2 : ∀ i, ∃ a : ℝ, x2 i = (a : EReal)) (h3 : ∀ i, ∃ a : ℝ, x3 i = (a : EReal)) :
    Cert.ReferenceIdeal.Read.val_main_v12 (F := Ideal) x0 x1 x2 x3
      = Cert.Spec.G (Cert.ReferenceIdeal.Read.val_main_v7 (F := Ideal) x0 x1) x2 x3 := by
  funext idx
  obtain ⟨i, n, rfl⟩ : ∃ (i : Fin 4096) (n : Fin 128), idx = ix2 i n := ⟨_, _, eq_ix2 idx⟩
  rw [Read.val_main_v12_apply, Ideal.hostDivf_def, Read.val_main_v11_apply, Read.val_main_v10_apply,
    Ideal.hostUnary_sqrt_def, Read.val_main_call0_v2_apply, Read.val_main_call0_v1_apply,
    Read.val_main_call0_cst_apply, Ideal.ofBits_def, Ideal.ofBits_zero_f32, zero_add]
  simp only [idx_norm_ix2, Read.val_main_call0_v0_apply, Ideal.mulf_def, v9_ix2 x0 x1 x2 x3 h0 h2 h3]
  rfl

/-! ## The precondition -/

/-- If the finiteness test of the inputs answers 1, the table, `A` and `D` have real entries. -/
theorem reals_of_pre
    (x0 : FVec Ideal Cert.Pre_finite_inputs.S100000x128 .f32) (x1 : IVec Cert.Pre_finite_inputs.S4096x50 32)
    (x2 x3 : FVec Ideal Cert.Pre_finite_inputs.S4096x4096 .f32) (x4 : FVec Ideal Cert.Pre_finite_inputs.S4096x1x256 .f32)
    (h : Cert.Pre_finite_inputs.fn (F := Ideal) x0 x1 x2 x3 x4 = fun _ => 1#1) :
    (∀ i, ∃ a : ℝ, x0 i = (a : EReal)) ∧ (∀ i, ∃ a : ℝ, x2 i = (a : EReal)) ∧ (∀ i, ∃ a : ℝ, x3 i = (a : EReal)) := by
  have h' := congrFun h ix0
  dsimp only [Cert.Pre_finite_inputs.fn, Cert.Pre_finite_inputs.fn_part1] at h'
  obtain ⟨h13, _⟩ := IntOp.andi_eq_one.1 h'
  obtain ⟨h8, h12⟩ := IntOp.andi_eq_one.1 h13
  obtain ⟨h3, h7⟩ := IntOp.andi_eq_one.1 h8
  exact ⟨Cert.LibFiniteInput.all_real x0 _ _ _ h3, Cert.LibFiniteInput.all_real x2 _ _ _ h7,
    Cert.LibFiniteInput.all_real x3 _ _ _ h12⟩

end Cert.RefSide

end
-- ==== Proof.lean ====
/-
  The certificate of a session-graph propagation kernel against its reference.

  Both programs gather, for each of 4096 sessions, 50 rows of an embedding table and add them up (the session matrix r,
  4096 x 128), multiply r by two square matrices A and D, and scale every row of the product to unit Euclidean length.
  The reference forms (D · A) · r; the kernel forms D · (A · r), each product tiled over a 4 x 8 grid with the inner
  sum carried in an accumulator.  On the extended reals the two groupings agree because every entry of D, A and r is a
  finite real (the precondition), and regrouping a finite sum needs nothing more; the tiling only reorders a sum.

  Frames: each kernel program runs as its host operations followed by the two launches, each launch a pipeline whose
  body is run case by case (inner coordinate 0, in between, 7) with the accumulator carried in the region invariant;
  the reference's frame is its run with the result dropped.  The idealization rewrote nothing.
-/
import proofs.«119342_j36077725286633_2_alg».proof.Defs
import proofs.«119342_j36077725286633_2_alg».proof.Proof.Gen.Kernel
import proofs.«119342_j36077725286633_2_alg».proof.Proof.Gen.KernelIdeal
import proofs.«119342_j36077725286633_2_alg».proof.Proof.Gen.ReferenceIdeal
import proofs.«119342_j36077725286633_2_alg».proof.Proof.Gen.Pre_finite_inputs
import proofs.«119342_j36077725286633_2_alg».proof.Proof.Gen.ReferenceIdeal.Run
import proofs.«119342_j36077725286633_2_alg».proof.Proof.Gen.ReferenceIdeal.Read
import proofs.«119342_j36077725286633_2_alg».proof.Proof.KernelFr.Main
import proofs.«119342_j36077725286633_2_alg».proof.Proof.KernelIdealFr.Main
import proofs.«119342_j36077725286633_2_alg».proof.Proof.KResult
import proofs.«119342_j36077725286633_2_alg».proof.Proof.RefSide

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result buffer at G r A D of the (agreeing) arguments. -/
theorem algebraic : Cert.algebraic_KernelIdeal_ReferenceIdeal := by
  intro m ρ m' ρ' hpre hagree
  refine ⟨fun c => Cert.Spec.G
      (Cert.ReferenceIdeal.Read.val_main_v7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c => ⟨(h c).1.trans (Cert.KResult.result_eq m c), (h c).2⟩)
      (Cert.KernelIdeal.Fr.run_result m ρ)
  · refine (θ_run Cert.ReferenceIdeal.defs _ _).mono (fun _ h c => ⟨(h c).1.trans ?_, (h c).2⟩)
      (Cert.ReferenceIdeal.Value.run (F := Ideal) m' ρ')
    obtain ⟨h0, h2, h3⟩ := Cert.RefSide.reals_of_pre _ _ _ _ _ (hpre c)
    rw [Cert.ReferenceIdeal.Read.val_main_v12_eq, (hagree c).1, (hagree c).2.1, (hagree c).2.2.1, (hagree c).2.2.2.1]
    exact Cert.RefSide.ref_value _ _ _ _ h0 h2 h3

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
